-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  main_v3
-- ==== Kernel.lean ====
abbrev S64x3x512x512 : Shape := ⟨4, ![64, 3, 512, 512]⟩
abbrev S64x96x4x4 : Shape := ⟨4, ![64, 96, 4, 4]⟩
abbrev S1x3x512x512 : Shape := ⟨4, ![1, 3, 512, 512]⟩
abbrev S1x96x4x4 : Shape := ⟨4, ![1, 96, 4, 4]⟩
abbrev S3x512x512 : Shape := ⟨3, ![3, 512, 512]⟩
abbrev S512x512 : Shape := ⟨2, ![512, 512]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S32x1x1 : Shape := ⟨3, ![32, 1, 1]⟩
abbrev S32 : Shape := ⟨1, ![32]⟩
abbrev S32x4x4 : Shape := ⟨3, ![32, 4, 4]⟩
abbrev S32x2x2 : Shape := ⟨3, ![32, 2, 2]⟩
abbrev S32x2x4 : Shape := ⟨3, ![32, 2, 4]⟩
abbrev S96x4x4 : Shape := ⟨3, ![96, 4, 4]⟩

abbrev nBuf : Space → Nat
  | .hbm => 2
  | .vmem => 4
  | .smem => 0
  | _ => 0

abbrev bufTy : (tb : Table) → Fin (tcTables nBuf tb) → BufTy
  | .hbm, ⟨0, _⟩ => ⟨S64x3x512x512, .f32⟩
  | .hbm, ⟨1, _⟩ => ⟨S64x96x4x4, .f32⟩
  | .local _ .vmem, ⟨0, _⟩ => ⟨S1x3x512x512, .f32⟩
  | .local _ .vmem, ⟨1, _⟩ => ⟨S1x3x512x512, .f32⟩
  | .local _ .vmem, ⟨2, _⟩ => ⟨S1x96x4x4, .f32⟩
  | .local _ .vmem, ⟨3, _⟩ => ⟨S1x96x4x4, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x96x4x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  natLt_1_32 : 1 < 32
  reduces_S3x512x512_S512x512 : S3x512x512.Reduces [0] S512x512
  slices_S512x512_o0_0_S256x512 : S512x512.Slices ![0, 0] S256x512
  slices_S512x512_o256_0_S256x512 : S512x512.Slices ![256, 0] S256x512
  slices_S256x512_o0_0_S256x256 : S256x512.Slices ![0, 0] S256x256
  slices_S256x512_o0_256_S256x256 : S256x512.Slices ![0, 256] S256x256
  reduces_S256x256_S256 : S256x256.Reduces [1] S256
  shapeCasts_S256_S256x1 : S256.ShapeCasts S256x1
  reduces_S256x1_S1 : S256x1.Reduces [0] S1
  shapeCasts_S1_S1x1 : S1.ShapeCasts S1x1
  shapeCasts_S1x1_S1x1x1 : S1x1.ShapeCasts S1x1x1
  concatenates_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S1x1x1_S32x1x1_d0 : Shape.Concatenates [S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1, S1x1x1] S32x1x1 0
  shapeCasts_S32x1x1_S32 : S32x1x1.ShapeCasts S32
  shapeCasts_S32_S32x1x1 : S32.ShapeCasts S32x1x1
  shapeCasts_S32x1x1_S32x1x1 : S32x1x1.ShapeCasts S32x1x1
  broadcasts_S32x1x1_S32x4x4 : S32x1x1.Broadcasts S32x4x4
  broadcasts_S32x1x1_S32x2x2 : S32x1x1.Broadcasts S32x2x2
  concatenates_S32x2x2_S32x2x2_S32x2x4_d2 : Shape.Concatenates [S32x2x2, S32x2x2] S32x2x4 2
  concatenates_S32x2x4_S32x2x4_S32x4x4_d1 : Shape.Concatenates [S32x2x4, S32x2x4] S32x4x4 1
  concatenates_S32x4x4_S32x4x4_S32x4x4_S96x4x4_d0 : Shape.Concatenates [S32x4x4, S32x4x4, S32x4x4] S96x4x4 0
  inb_S1x96x4x4_S1x96x4x4_0_0_0_0 : ∀ a, (![0, 0, 0, 0] : Fin 4 → Nat) a + S1x96x4x4.size a ≤ S1x96x4x4.size a
  h_S1x96x4x4 : 0 < S1x96x4x4.numel
  shapeCasts_S1x96x4x4_S96x4x4 : S1x96x4x4.ShapeCasts S96x4x4
  shapeCasts_S96x4x4_S1x96x4x4 : S96x4x4.ShapeCasts S1x96x4x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S64x3x512x512.size a
  hwx0_0 : ∀ i : grid0.Coords, EltTy.bits .f32 = 32 ∨ (Rect.block (s := S64x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x4x4.size a ≤ S64x96x4x4.size a
  hwx0_1 : ∀ i : grid0.Coords, EltTy.bits .f32 = 32 ∨ (Rect.block (s := S64x96x4x4) S1x96x4x4.size (cc0_transform_1 i) (hinb0_1 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x96x4x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x3x512x512 : Shape := ⟨4, ![64, 3, 512, 512]⟩
abbrev S_ : Shape := ⟨0, ![]⟩
abbrev S64x3x2x256x2x256 : Shape := ⟨6, ![64, 3, 2, 256, 2, 256]⟩
abbrev S64 : Shape := ⟨1, ![64]⟩
abbrev S64x1x1x1x1x1 : Shape := ⟨6, ![64, 1, 1, 1, 1, 1]⟩
abbrev S2 : Shape := ⟨1, ![2]⟩
abbrev S1x1x2x1x1x1 : Shape := ⟨6, ![1, 1, 2, 1, 1, 1]⟩
abbrev S64x1x2x1x1x1 : Shape := ⟨6, ![64, 1, 2, 1, 1, 1]⟩
abbrev S1x1x1x1x2x1 : Shape := ⟨6, ![1, 1, 1, 1, 2, 1]⟩
abbrev S64x1x2x1x2x1 : Shape := ⟨6, ![64, 1, 2, 1, 2, 1]⟩
abbrev S50331648 : Shape := ⟨1, ![50331648]⟩
abbrev S8192 : Shape := ⟨1, ![8192]⟩
abbrev S50331648x1 : Shape := ⟨2, ![50331648, 1]⟩
abbrev S64x2x2x32 : Shape := ⟨4, ![64, 2, 2, 32]⟩
abbrev S64x32 : Shape := ⟨2, ![64, 32]⟩
abbrev S64x32x1x1 : Shape := ⟨4, ![64, 32, 1, 1]⟩
abbrev S64x32x4x4 : Shape := ⟨4, ![64, 32, 4, 4]⟩
abbrev S64x32x2x2 : Shape := ⟨4, ![64, 32, 2, 2]⟩
abbrev S64x32x2x2x2 : Shape := ⟨5, ![64, 32, 2, 2, 2]⟩
abbrev S64x32x4x2 : Shape := ⟨4, ![64, 32, 4, 2]⟩
abbrev S64x32x4x2x2 : Shape := ⟨5, ![64, 32, 4, 2, 2]⟩
abbrev S64x96x4x4 : Shape := ⟨4, ![64, 96, 4, 4]⟩

abbrev nBuf : Space → Nat
  | .hbm => 72
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S_, .f32⟩
  | .hbm, ⟨2, _⟩ => ⟨S64x3x512x512, .f32⟩
  | .hbm, ⟨3, _⟩ => ⟨S64x3x512x512, .f32⟩
  | .hbm, ⟨4, _⟩ => ⟨S64x3x512x512, .f32⟩
  | .hbm, ⟨5, _⟩ => ⟨S64x3x512x512, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64x3x512x512, .i32⟩
  | .hbm, ⟨10, _⟩ => ⟨S64x3x512x512, .i32⟩
  | .hbm, ⟨11, _⟩ => ⟨S_, .i32⟩
  | .hbm, ⟨12, _⟩ => ⟨S64x3x512x512, .i32⟩
  | .hbm, ⟨13, _⟩ => ⟨S64x3x512x512, .i32⟩
  | .hbm, ⟨14, _⟩ => ⟨S_, .f32⟩
  | .hbm, ⟨15, _⟩ => ⟨S64x3x512x512, .f32⟩
  | .hbm, ⟨16, _⟩ => ⟨S64x3x512x512, .i1⟩
  | .hbm, ⟨17, _⟩ => ⟨S_, .f32⟩
  | .hbm, ⟨18, _⟩ => ⟨S64x3x512x512, .f32⟩
  | .hbm, ⟨19, _⟩ => ⟨S64x3x512x512, .i1⟩
  | .hbm, ⟨20, _⟩ => ⟨S64x3x512x512, .i1⟩
  | .hbm, ⟨21, _⟩ => ⟨S64x3x512x512, .f32⟩
  | .hbm, ⟨22, _⟩ => ⟨S64x3x2x256x2x256, .i32⟩
  | .hbm, ⟨23, _⟩ => ⟨S64x3x2x256x2x256, .f32⟩
  | .hbm, ⟨24, _⟩ => ⟨S64, .i32⟩
  | .hbm, ⟨25, _⟩ => ⟨S64x1x1x1x1x1, .i32⟩
  | .hbm, ⟨26, _⟩ => ⟨S_, .i32⟩
  | .hbm, ⟨27, _⟩ => ⟨S64x1x1x1x1x1, .i32⟩
  | .hbm, ⟨28, _⟩ => ⟨S64x1x1x1x1x1, .i32⟩
  | .hbm, ⟨29, _⟩ => ⟨S2, .i32⟩
  | .hbm, ⟨30, _⟩ => ⟨S1x1x2x1x1x1, .i32⟩
  | .hbm, ⟨31, _⟩ => ⟨S_, .i32⟩
  | .hbm, ⟨32, _⟩ => ⟨S1x1x2x1x1x1, .i32⟩
  | .hbm, ⟨33, _⟩ => ⟨S1x1x2x1x1x1, .i32⟩
  | .hbm, ⟨34, _⟩ => ⟨S64x1x2x1x1x1, .i32⟩
  | .hbm, ⟨35, _⟩ => ⟨S64x1x2x1x1x1, .i32⟩
  | .hbm, ⟨36, _⟩ => ⟨S64x1x2x1x1x1, .i32⟩
  | .hbm, ⟨37, _⟩ => ⟨S2, .i32⟩
  | .hbm, ⟨38, _⟩ => ⟨S1x1x1x1x2x1, .i32⟩
  | .hbm, ⟨39, _⟩ => ⟨S64x1x2x1x2x1, .i32⟩
  | .hbm, ⟨40, _⟩ => ⟨S64x1x2x1x2x1, .i32⟩
  | .hbm, ⟨41, _⟩ => ⟨S64x1x2x1x2x1, .i32⟩
  | .hbm, ⟨42, _⟩ => ⟨S_, .i32⟩
  | .hbm, ⟨43, _⟩ => ⟨S64x1x2x1x2x1, .i32⟩
  | .hbm, ⟨44, _⟩ => ⟨S64x1x2x1x2x1, .i32⟩
  | .hbm, ⟨45, _⟩ => ⟨S64x3x2x256x2x256, .i32⟩
  | .hbm, ⟨46, _⟩ => ⟨S64x3x2x256x2x256, .i32⟩
  | .hbm, ⟨47, _⟩ => ⟨S50331648, .i32⟩
  | .hbm, ⟨48, _⟩ => ⟨S50331648, .f32⟩
  | .hbm, ⟨49, _⟩ => ⟨S_, .f32⟩
  | .hbm, ⟨50, _⟩ => ⟨S8192, .f32⟩
  | .hbm, ⟨51, _⟩ => ⟨S50331648x1, .i32⟩
  | .hbm, ⟨52, _⟩ => ⟨S8192, .f32⟩
  | .hbm, ⟨53, _⟩ => ⟨S64x2x2x32, .f32⟩
  | .hbm, ⟨54, _⟩ => ⟨S_, .f32⟩
  | .hbm, ⟨55, _⟩ => ⟨S64x2x2x32, .f32⟩
  | .hbm, ⟨56, _⟩ => ⟨S64x2x2x32, .f32⟩
  | .hbm, ⟨57, _⟩ => ⟨S_, .f32⟩
  | .hbm, ⟨58, _⟩ => ⟨S64x32, .f32⟩
  | .hbm, ⟨59, _⟩ => ⟨S_, .f32⟩
  | .hbm, ⟨60, _⟩ => ⟨S64x32, .f32⟩
  | .hbm, ⟨61, _⟩ => ⟨S64x32, .f32⟩
  | .hbm, ⟨62, _⟩ => ⟨S64x32x1x1, .f32⟩
  | .hbm, ⟨63, _⟩ => ⟨S64x32x4x4, .f32⟩
  | .hbm, ⟨64, _⟩ => ⟨S64x32x2x2, .f32⟩
  | .hbm, ⟨65, _⟩ => ⟨S64x32x2x2x2, .f32⟩
  | .hbm, ⟨66, _⟩ => ⟨S64x32x4x2, .f32⟩
  | .hbm, ⟨67, _⟩ => ⟨S64x32x4x2x2, .f32⟩
  | .hbm, ⟨68, _⟩ => ⟨S64x32x4x4, .f32⟩
  | .hbm, ⟨69, _⟩ => ⟨S_, .f32⟩
  | .hbm, ⟨70, _⟩ => ⟨S64x32x4x4, .f32⟩
  | .hbm, ⟨71, _⟩ => ⟨S64x96x4x4, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S_S64x3x512x512 : S_.BroadcastsInDim S64x3x512x512 (![] : Fin 0 → Fin S64x3x512x512.rank)
  shapeCasts_S64x3x512x512_S64x3x2x256x2x256 : S64x3x512x512.ShapeCasts S64x3x2x256x2x256
  shapeCasts_S64_S64x1x1x1x1x1 : S64.ShapeCasts S64x1x1x1x1x1
  bcast_S_S64x1x1x1x1x1 : S_.BroadcastsInDim S64x1x1x1x1x1 (![] : Fin 0 → Fin S64x1x1x1x1x1.rank)
  shapeCasts_S2_S1x1x2x1x1x1 : S2.ShapeCasts S1x1x2x1x1x1
  bcast_S_S1x1x2x1x1x1 : S_.BroadcastsInDim S1x1x2x1x1x1 (![] : Fin 0 → Fin S1x1x2x1x1x1.rank)
  bcast_S64x1x1x1x1x1_S64x1x2x1x1x1_0_1_2_3_4_5 : S64x1x1x1x1x1.BroadcastsInDim S64x1x2x1x1x1 (![0, 1, 2, 3, 4, 5] : Fin 6 → Fin S64x1x2x1x1x1.rank)
  bcast_S1x1x2x1x1x1_S64x1x2x1x1x1_0_1_2_3_4_5 : S1x1x2x1x1x1.BroadcastsInDim S64x1x2x1x1x1 (![0, 1, 2, 3, 4, 5] : Fin 6 → Fin S64x1x2x1x1x1.rank)
  shapeCasts_S2_S1x1x1x1x2x1 : S2.ShapeCasts S1x1x1x1x2x1
  bcast_S64x1x2x1x1x1_S64x1x2x1x2x1_0_1_2_3_4_5 : S64x1x2x1x1x1.BroadcastsInDim S64x1x2x1x2x1 (![0, 1, 2, 3, 4, 5] : Fin 6 → Fin S64x1x2x1x2x1.rank)
  bcast_S1x1x1x1x2x1_S64x1x2x1x2x1_0_1_2_3_4_5 : S1x1x1x1x2x1.BroadcastsInDim S64x1x2x1x2x1 (![0, 1, 2, 3, 4, 5] : Fin 6 → Fin S64x1x2x1x2x1.rank)
  bcast_S_S64x1x2x1x2x1 : S_.BroadcastsInDim S64x1x2x1x2x1 (![] : Fin 0 → Fin S64x1x2x1x2x1.rank)
  bcast_S64x1x2x1x2x1_S64x3x2x256x2x256_0_1_2_3_4_5 : S64x1x2x1x2x1.BroadcastsInDim S64x3x2x256x2x256 (![0, 1, 2, 3, 4, 5] : Fin 6 → Fin S64x3x2x256x2x256.rank)
  shapeCasts_S64x3x2x256x2x256_S50331648 : S64x3x2x256x2x256.ShapeCasts S50331648
  bcast_S_S8192 : S_.BroadcastsInDim S8192 (![] : Fin 0 → Fin S8192.rank)
  bcast_S50331648_S50331648x1_0 : S50331648.BroadcastsInDim S50331648x1 (![0] : Fin 1 → Fin S50331648x1.rank)
  shapeCasts_S8192_S64x2x2x32 : S8192.ShapeCasts S64x2x2x32
  bcast_S_S64x2x2x32 : S_.BroadcastsInDim S64x2x2x32 (![] : Fin 0 → Fin S64x2x2x32.rank)
  reducesTo_S64x2x2x32_S64x32_d1_2 : S64x2x2x32.ReducesTo [1, 2] S64x32
  h_S_ : 0 < S_.numel
  bcast_S_S64x32 : S_.BroadcastsInDim S64x32 (![] : Fin 0 → Fin S64x32.rank)
  bcast_S64x32_S64x32x1x1_0_1 : S64x32.BroadcastsInDim S64x32x1x1 (![0, 1] : Fin 2 → Fin S64x32x1x1.rank)
  bcast_S64x32x1x1_S64x32x4x4_0_1_2_3 : S64x32x1x1.BroadcastsInDim S64x32x4x4 (![0, 1, 2, 3] : Fin 4 → Fin S64x32x4x4.rank)
  transposes_S64x2x2x32_S64x32x2x2_0_3_1_2 : S64x2x2x32.Transposes [0, 3, 1, 2] S64x32x2x2
  bcast_S64x32x2x2_S64x32x2x2x2_0_1_2_4 : S64x32x2x2.BroadcastsInDim S64x32x2x2x2 (![0, 1, 2, 4] : Fin 4 → Fin S64x32x2x2x2.rank)
  shapeCasts_S64x32x2x2x2_S64x32x4x2 : S64x32x2x2x2.ShapeCasts S64x32x4x2
  bcast_S64x32x4x2_S64x32x4x2x2_0_1_2_3 : S64x32x4x2.BroadcastsInDim S64x32x4x2x2 (![0, 1, 2, 3] : Fin 4 → Fin S64x32x4x2x2.rank)
  shapeCasts_S64x32x4x2x2_S64x32x4x4 : S64x32x4x2x2.ShapeCasts S64x32x4x4
  bcast_S_S64x32x4x4 : S_.BroadcastsInDim S64x32x4x4 (![] : Fin 0 → Fin S64x32x4x4.rank)
  concatenates_S64x32x4x4_S64x32x4x4_S64x32x4x4_S64x96x4x4_d1 : Shape.Concatenates [S64x32x4x4, S64x32x4x4, S64x32x4x4] S64x96x4x4 1
  scatter_S8192_S50331648x1_S50331648_n_0_0_1_wf : ScatterDims.WF S8192 S50331648x1 S50331648 [] [0] [0] 1

variable [Facts₀]

def scatter_S8192_S50331648x1_S50331648_n_0_0_1 : ScatterDims S8192 S50331648x1 S50331648 where
  updateWindowDims := []
  insertedWindowDims := [0]
  scatterDimsToOperandDims := [0]
  indexVectorDim := 1
  wf := scatter_S8192_S50331648x1_S50331648_n_0_0_1_wf

class Facts : Prop extends Facts₀ where

variable [Facts]
-- ==== Proof.KernelShape.lean ====
/-
  The kernel body's result in a uniform spelling.

  The body computes, for each of the 32 bin words `k`, the plane of per-pixel hits summed over the three channels,
  cuts the plane into its four 256 × 256 quadrants and adds each quadrant up (along the lanes, then down the
  rows). The 32 totals of one quadrant are stacked into a vector of 32 counts; the four count vectors are then
  scaled and laid out over the 96 × 4 × 4 output block. Here the 32 repetitions are written once, as functions of
  the bin word, and the body's result is shown to be these functions' value (by unfolding definitions only).
-/
import proofs.«153028_j50165218017745_2_alg».proof.Proof.Gen.KernelIdeal.Frame

set_option maxRecDepth 16384

noncomputable section

namespace Cert.Hist.Kern

open Idealize.ShloMosaic Idealize.ShloMosaic.TcCoe Idealize.SL.Sem
open Cert.KernelIdeal Cert.KernelIdeal.Gen

variable {F : FTy → Type} [FloatOps F]

/-- The hits of bin word `k`, added over the three channels: a 512 × 512 plane. -/
def plane (k : BitVec 32) (bins : IVec S3x512x512 32) (wts : FVec F S3x512x512 .f32) : FVec F S512x512 .f32 :=
  multiReduction .add [0] S512x512
    (select (cmpi .eq bins (broadcast S3x512x512 k)) wts (broadcast S3x512x512 (Scalar.ofBits .f32 0x00000000#32)))
    0x00000000#32 reduces_S3x512x512_S512x512 (.inl rfl) rfl

/-- A 256 × 256 tile added up: along the lanes, then down the rows, kept as a 1 × 1 vector. -/
def total (tile : FVec F S256x256 .f32) : FVec F S1x1 .f32 :=
  shapeCast S1x1
    (multiReduction .add [0] S1
      (shapeCast S256x1 (multiReduction .add [1] S256 tile 0x00000000#32 reduces_S256x256_S256 (.inl rfl) rfl)
        shapeCasts_S256_S256x1)
      0x00000000#32 reduces_S256x1_S1 (.inl rfl) rfl)
    shapeCasts_S1_S1x1

/-- The four quadrants' totals of a plane: top-left, top-right, bottom-left, bottom-right. -/
def quadTL (p : FVec F S512x512 .f32) : FVec F S1x1 .f32 :=
  total (extractStridedSlice S256x256 ![0, 0]
    (extractStridedSlice S256x512 ![0, 0] p slices_S512x512_o0_0_S256x512) slices_S256x512_o0_0_S256x256)
def quadTR (p : FVec F S512x512 .f32) : FVec F S1x1 .f32 :=
  total (extractStridedSlice S256x256 ![0, 256]
    (extractStridedSlice S256x512 ![0, 0] p slices_S512x512_o0_0_S256x512) slices_S256x512_o0_256_S256x256)
def quadBL (p : FVec F S512x512 .f32) : FVec F S1x1 .f32 :=
  total (extractStridedSlice S256x256 ![0, 0]
    (extractStridedSlice S256x512 ![256, 0] p slices_S512x512_o256_0_S256x512) slices_S256x512_o0_0_S256x256)
def quadBR (p : FVec F S512x512 .f32) : FVec F S1x1 .f32 :=
  total (extractStridedSlice S256x256 ![0, 256]
    (extractStridedSlice S256x512 ![256, 0] p slices_S512x512_o256_0_S256x512) slices_S256x512_o0_256_S256x256)

/-- The 32 pieces of a stack: piece `n` is the 1 × 1 value of bin word `n`, as a 1 × 1 × 1 vector. -/
def pieces (q : BitVec 32 → FVec F S1x1 .f32) : List ((s : Shape) × (s.Idx → F .f32)) :=
  List.ofFn fun n : Fin 32 => ⟨S1x1x1, shapeCast S1x1x1 (q (BitVec.ofNat 32 n.val)) shapeCasts_S1x1_S1x1x1⟩

theorem pieces_shapes (q : BitVec 32 → FVec F S1x1 .f32) :
    Shape.Concatenates ((pieces q).map (·.1)) S32x1x1 0 := by
  have e : (pieces q).map (·.1) = List.replicate 32 S1x1x1 := by
    simp [pieces, List.map_ofFn, Function.comp_def, List.ofFn_const]
  rw [e]; decide

/-- The 32 values stacked into one vector of 32. -/
def stack (q : BitVec 32 → FVec F S1x1 .f32) : FVec F S32 .f32 :=
  shapeCast S32 (concatenate S32x1x1 0 (pieces q) (pieces_shapes q)) shapeCasts_S32x1x1_S32

/-- The output block from the four quadrants' count vectors. -/
def layout (tl tr bl br : FVec F S32 .f32) : Vec F S1x96x4x4 .f32 :=
  k0_pay1 (k0_pay298 tl tr bl br) (k0_pay299 tl tr bl br (Scalar.ofBits .f32 0x37800000#32)) (k0_pay300 (F := F))

/-- The body's result from the pixels' bin words and weights. -/
def result (bins : IVec S3x512x512 32) (wts : FVec F S3x512x512 .f32) : Vec F S1x96x4x4 .f32 :=
  layout (stack fun k => quadTL (plane k bins wts)) (stack fun k => quadTR (plane k bins wts))
    (stack fun k => quadBL (plane k bins wts)) (stack fun k => quadBR (plane k bins wts))

/-- The body's stores, read back, are `result` of the bin words and weights of the loaded block: the 32 unrolled
    repetitions are the uniform functions above at the bin words 0 … 31 (both sides unfold to one term). -/
theorem out_eq (x0 : Vec F S1x3x512x512 .f32) :
    out0_1 x0 = View.canon [⟨r0_1, result (k0_pay3 (View.ld x0 r0_0)) (k0_pay4 (View.ld x0 r0_0))⟩] := rfl

end Cert.Hist.Kern

end
-- ==== Proof.Spec.lean ====
/-
  The multi-scale histogram of an image batch, as one function of the input array.

  Every pixel value `x` has a bin word — `floor (32·x)` converted to a 32-bit integer and clamped to 0 … 31 —
  and a weight, 1 when `0 ≤ x ≤ 1` and 0 otherwise. For an image `b`, a quadrant `(qi, qj)` of its 512 × 512
  plane (rows `256·qi …`, columns `256·qj …`) and a bin `k`, `count` adds the weights of the pixels of that
  quadrant, over all three channels, whose bin word is `k`. The output at `(b, ch, r, s)` is, for `ch < 32`, the
  four quadrants' counts of bin `ch` added and scaled by 2⁻¹⁸; for `32 ≤ ch < 64` the count of bin `ch − 32` in
  the quadrant `(r / 2, s / 2)` scaled by 2⁻¹⁶; and 0 for `ch ≥ 64`.
-/
import Idealize.ShloMosaic.PureOps.Ideal
import Idealize.ShloMosaic.Lib.ValueIdx

noncomputable section

open scoped BigOperators

namespace Cert.Hist

open Idealize.ShloMosaic Idealize.ShloMosaic.ValueIdx

abbrev SImg : Shape := ⟨4, ![64, 3, 512, 512]⟩
abbrev SOut : Shape := ⟨4, ![64, 96, 4, 4]⟩

/-- The bin word of a pixel value: `floor (32·x)` as a 32-bit integer, clamped to 0 … 31. -/
def binOf (x : EReal) : BitVec 32 :=
  IntOp.minsi 31#32 (IntOp.maxsi 0#32 (Ideal.fptosi 32 (Ideal.liftRound Int.floor (x * Ideal.ofBits .f32 0x42000000#32))))

/-- The weight of a pixel value: 1 when `0 ≤ x ≤ 1`, else 0. -/
def weightOf (x : EReal) : EReal :=
  (((IntOp.andi (Ideal.cmp .oge x (Ideal.ofBits .f32 0x00000000#32))
      (Ideal.cmp .ole x (Ideal.ofBits .f32 0x3F800000#32))).toNat : ℝ) : EReal)

/-- What a pixel value adds to bin `k`: its weight when its bin word is `k`, else 0. -/
def hit (k : Nat) (x : EReal) : EReal := if binOf x = BitVec.ofNat 32 k then weightOf x else 0

/-- Row (or column) `r` of half `q` of a 512-long axis. -/
def half (q : Fin 2) (r : Fin 256) : Fin 512 := ⟨256 * q.val + r.val, by omega⟩

/-- The weighted number of pixels of image `b`, quadrant `(qi, qj)`, all channels, in bin `k`. -/
def count (X : SImg.Idx → EReal) (b : Fin 64) (qi qj : Fin 2) (k : Nat) : EReal :=
  ∑ r : Fin 256, ∑ s : Fin 256, ∑ c : Fin 3, hit k (X (ix4 b c (half qi r) (half qj s)))

/-- The half (0 or 1) of a 4-long axis that position `r` lies in. -/
def halfOf (r : Fin 4) : Fin 2 := ⟨r.val / 2, by omega⟩

/-- The whole output array. -/
def G (X : SImg.Idx → EReal) : SOut.Idx → EReal := fun j =>
  if (j 1).val < 32 then
    (count X (j 0) 0 0 (j 1).val + count X (j 0) 0 1 (j 1).val + count X (j 0) 1 0 (j 1).val
      + count X (j 0) 1 1 (j 1).val) * Ideal.ofBits .f32 0x36800000#32
  else if (j 1).val < 64 then
    count X (j 0) (halfOf (j 2)) (halfOf (j 3)) ((j 1).val - 32) * Ideal.ofBits .f32 0x37800000#32
  else Ideal.ofBits .f32 0x00000000#32

end Cert.Hist

end
-- ==== Proof.LibRowReduce.lean ====
/-
  A matrix reduced along its rows, read at a row, at the ideal values: the lane sum of `[a, b]` at row `r` is the sum
  over `c` of the entries `(r, c)`, and the lane maximum is the fold of `max`, from the value the accumulator's word
  denotes, over the same entries. The reduced index with the coordinate `c` put back on the dropped axis is `(r, c)`.
-/
import Idealize.ShloMosaic.Lib.ValueIdx
import Idealize.ShloMosaic.PureOps.Ideal.Laws

noncomputable section

namespace Cert.LibRowReduce

open Idealize.ShloMosaic Idealize.ShloMosaic.ValueIdx

/-- Row `r` of `[a, b]` with the column `c` put back is the entry `(r, c)`. -/
theorem lift_row {a b : ℕ} (h : (⟨2, ![a, b]⟩ : Shape).Reduces [1] ⟨1, ![a]⟩) (r : Fin a) (c : Fin b) :
    h.lift (ix1 r) c = ix2 r c := by
  funext d
  apply Fin.ext
  match d with
  | ⟨0, _⟩ => rfl
  | ⟨1, _⟩ => rfl

/-- The lane sum of a matrix at row `r` is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- The lane maximum of a matrix at row `r` is the fold of `max` over the row's entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (congrArg ((Finset.univ : Finset (Fin b)).fold max (Ideal.ofBits φ acc)) (funext fun c => congrArg src (lift_row h r c)))

end Cert.LibRowReduce

end
-- ==== Proof.LibMinReduce.lean ====
/-
  A matrix reduced by a minimum along its rows or along its columns, and summed along its columns, read at the
  reduced index, at the ideal values: the lane minimum of `[a, b]` at row `r` is the fold of `min`, from the value
  the accumulator's word denotes, over the entries `(r, c)` of the row; the sublane minimum at column `c` the same
  fold over the entries `(r, c)` of the column; the sublane sum at column `c` the sum of the column's entries.
  A minimum folded from `⊤` is the infimum. (The lane sum and the row's lifted index are the row-reduction module's.)
-/
import proofs.«153028_j50165218017745_2_alg».proof.Proof.LibRowReduce
import Idealize.ShloMosaic.Lib.ValueIdx
import Idealize.ShloMosaic.PureOps.Ideal.Laws

noncomputable section

namespace Cert.LibMinReduce

open Idealize.ShloMosaic Idealize.ShloMosaic.ValueIdx

/-- Column `c` of `[a, b]` with the row `r` put back is the entry `(r, c)`. -/
theorem lift_col {a b : ℕ} (h : (⟨2, ![a, b]⟩ : Shape).Reduces [0] ⟨1, ![b]⟩) (c : Fin b) (r : Fin a) :
    h.lift (ix1 c) r = ix2 r c := by
  funext d
  apply Fin.ext
  match d with
  | ⟨0, _⟩ => rfl
  | ⟨1, _⟩ => rfl

/-- A minimum reduction over one axis, at the ideal values: the fold of `min` from the accumulator's value over that
    axis's coordinates. -/
theorem multiReduction_minimumf_single {s t : Shape} {φ : FTy} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

/-- The lane minimum of a matrix at row `r`: the fold of `min` over the row's entries. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun c => src (ix2 r c)) :=
  (multiReduction_minimumf_single src acc h hφ hacc (ix1 r)).trans
    (congrArg ((Finset.univ : Finset (Fin b)).fold min (Ideal.ofBits φ acc)) (funext fun c => congrArg src (Cert.LibRowReduce.lift_row h r c)))

/-- The sublane minimum of a matrix at column `c`: the fold of `min` over the column's entries. -/
theorem colMin_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (c : Fin b) :
    multiReduction .minimumf [0] ⟨1, ![b]⟩ src acc h hφ hacc (ix1 c)
      = (Finset.univ : Finset (Fin a)).fold min (Ideal.ofBits φ acc) (fun r => src (ix2 r c)) :=
  (multiReduction_minimumf_single src acc h hφ hacc (ix1 c)).trans
    (congrArg ((Finset.univ : Finset (Fin a)).fold min (Ideal.ofBits φ acc)) (funext fun r => congrArg src (lift_col h c r)))

/-- The sublane sum of a matrix at column `c`: the sum of the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_col h c r))

/-- A minimum folded from the top element is the infimum. -/
theorem fold_min_top {ι : Type} (s : Finset ι) (f : ι → EReal) : s.fold min (⊤ : EReal) f = s.inf f := rfl

end Cert.LibMinReduce

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.KernelSums.lean ====
/-
  The kernel body's sums, read at an index, at the ideal values.

  The plane of bin word `k` at pixel `(i, j)` is the sum over the three channels of the pixel's hit; a tile's total is the
  sum over its rows of the sums along each row; a quadrant's total is that double sum over the quadrant's rows and columns
  of the plane; and entry `n` of a stack of 32 totals is the total of bin word `n`.
-/
import proofs.«153028_j50165218017745_2_alg».proof.Proof.KernelShape
import proofs.«153028_j50165218017745_2_alg».proof.Proof.Spec
import proofs.«153028_j50165218017745_2_alg».proof.Proof.LibRowReduce
import proofs.«153028_j50165218017745_2_alg».proof.Proof.LibMinReduce
import proofs.«153028_j50165218017745_2_alg».proof.Proof.LibKeepdims
import Idealize.ShloMosaic.Lib.ValueLayout
import Idealize.ShloMosaic.Lib.Pipeline.Value
import Idealize.ShloMosaic.PureOps.Ideal.Laws

noncomputable section

open scoped BigOperators

namespace Cert.Hist.Kern

open Idealize.ShloMosaic Idealize.ShloMosaic.ValueIdx
open Cert.KernelIdeal Cert.KernelIdeal.Gen

/-- A pixel `(i, j)` of the plane with the channel `c` put back is the entry `(c, i, j)`. -/
theorem lift_chan (h : S3x512x512.Reduces [0] S512x512) (i j : Fin 512) (c : Fin 3) :
    h.lift (ix2 i j) c = ix3 c i j := by
  funext d
  apply Fin.ext
  match d with
  | ⟨0, _⟩ => rfl
  | ⟨1, _⟩ => rfl
  | ⟨2, _⟩ => rfl

/-- The plane of bin word `k` at a pixel: the three channels' selected weights added. -/
theorem plane_apply (k : BitVec 32) (bins : IVec S3x512x512 32) (wts : FVec Ideal S3x512x512 .f32) (i j : Fin 512) :
    plane k bins wts (ix2 i j)
      = ∑ c : Fin 3, Scalar.select (IntOp.cmpi .eq (bins (ix3 c i j)) k) (wts (ix3 c i j)) (Ideal.ofBits .f32 0x00000000#32) := by
  unfold plane
  refine (Ideal.multiReduction_add_single _ 0x00000000#32 reduces_S3x512x512_S512x512 (.inl rfl) rfl (ix2 i j)).trans ?_
  refine Finset.sum_congr rfl fun c _ => ?_
  exact congrArg (fun z => select (cmpi .eq bins (broadcast S3x512x512 k)) wts
    (broadcast S3x512x512 (Scalar.ofBits (F := Ideal) .f32 0x00000000#32)) z) (lift_chan reduces_S3x512x512_S512x512 i j c)

/-- A tile's total: the sum over its rows of the sums along each row. -/
theorem total_apply (tile : FVec Ideal S256x256 .f32) :
    total tile (ix2 (0 : Fin 1) (0 : Fin 1)) = ∑ r : Fin 256, ∑ s : Fin 256, tile (ix2 r s) := by
  unfold total
  refine (Cert.LibKeepdims.shapeCast_a_a1_apply _ shapeCasts_S1_S1x1 (0 : Fin 1) (0 : Fin 1)).trans ?_
  refine (Cert.LibMinReduce.colSum_apply _ 0x00000000#32 reduces_S256x1_S1 (.inl rfl) rfl (0 : Fin 1)).trans ?_
  refine Finset.sum_congr rfl fun r _ => ?_
  refine (Cert.LibKeepdims.shapeCast_a_a1_apply _ shapeCasts_S256_S256x1 r (0 : Fin 1)).trans ?_
  exact Cert.LibRowReduce.rowSum_apply tile 0x00000000#32 reduces_S256x256_S256 (.inl rfl) rfl r

/-- The total of quadrant `(qi, qj)` of a plane: the double sum over the quadrant's rows and columns. -/
theorem quadTL_apply (p : FVec Ideal S512x512 .f32) :
    quadTL p (ix2 (0 : Fin 1) (0 : Fin 1)) = ∑ r : Fin 256, ∑ s : Fin 256, p (ix2 (half 0 r) (half 0 s)) := by
  unfold quadTL
  refine (total_apply _).trans (Finset.sum_congr rfl fun r _ => Finset.sum_congr rfl fun s _ => ?_)
  refine (slice2_axis1_apply 0 _ slices_S256x512_o0_0_S256x256 r s (half 0 s) (by show 256 * 0 + s.val = 0 + s.val; omega)).trans ?_
  exact slice2_axis0_apply 0 p slices_S512x512_o0_0_S256x512 r (half 0 s) (half 0 r) (by show 256 * 0 + r.val = 0 + r.val; omega)

theorem quadTR_apply (p : FVec Ideal S512x512 .f32) :
    quadTR p (ix2 (0 : Fin 1) (0 : Fin 1)) = ∑ r : Fin 256, ∑ s : Fin 256, p (ix2 (half 0 r) (half 1 s)) := by
  unfold quadTR
  refine (total_apply _).trans (Finset.sum_congr rfl fun r _ => Finset.sum_congr rfl fun s _ => ?_)
  refine (slice2_axis1_apply 256 _ slices_S256x512_o0_256_S256x256 r s (half 1 s) (by show 256 * 1 + s.val = 256 + s.val; omega)).trans ?_
  exact slice2_axis0_apply 0 p slices_S512x512_o0_0_S256x512 r (half 1 s) (half 0 r) (by show 256 * 0 + r.val = 0 + r.val; omega)

theorem quadBL_apply (p : FVec Ideal S512x512 .f32) :
    quadBL p (ix2 (0 : Fin 1) (0 : Fin 1)) = ∑ r : Fin 256, ∑ s : Fin 256, p (ix2 (half 1 r) (half 0 s)) := by
  unfold quadBL
  refine (total_apply _).trans (Finset.sum_congr rfl fun r _ => Finset.sum_congr rfl fun s _ => ?_)
  refine (slice2_axis1_apply 0 _ slices_S256x512_o0_0_S256x256 r s (half 0 s) (by show 256 * 0 + s.val = 0 + s.val; omega)).trans ?_
  exact slice2_axis0_apply 256 p slices_S512x512_o256_0_S256x512 r (half 0 s) (half 1 r) (by show 256 * 1 + r.val = 256 + r.val; omega)

theorem quadBR_apply (p : FVec Ideal S512x512 .f32) :
    quadBR p (ix2 (0 : Fin 1) (0 : Fin 1)) = ∑ r : Fin 256, ∑ s : Fin 256, p (ix2 (half 1 r) (half 1 s)) := by
  unfold quadBR
  refine (total_apply _).trans (Finset.sum_congr rfl fun r _ => Finset.sum_congr rfl fun s _ => ?_)
  refine (slice2_axis1_apply 256 _ slices_S256x512_o0_256_S256x256 r s (half 1 s) (by show 256 * 1 + s.val = 256 + s.val; omega)).trans ?_
  exact slice2_axis0_apply 256 p slices_S512x512_o256_0_S256x512 r (half 1 s) (half 1 r) (by show 256 * 1 + r.val = 256 + r.val; omega)

/-- Entry `n` of a stack of 32 totals is the total of bin word `n`. -/
theorem stack_apply (q : BitVec 32 → FVec Ideal S1x1 .f32) (n : Fin 32) :
    stack q (ix1 n) = q (BitVec.ofNat 32 n.val) (ix2 (0 : Fin 1) (0 : Fin 1)) := by
  unfold stack
  refine (shapeCast_apply _ shapeCasts_S32x1x1_S32 (ix1 n) (ix3 n (0 : Fin 1) (0 : Fin 1)) (by
    rw [Shape.rowMajor_val_three, Shape.rowMajor_val_one]
    show (n.val * 1 + 0) * 1 + 0 = n.val
    omega)).trans ?_
  refine (concatenate_ofFn_unit_apply (t := S32x1x1) (s₁ := S1x1x1) (0 : Fin 3)
    (fun n : Fin 32 => shapeCast S1x1x1 (q (BitVec.ofNat 32 n.val)) shapeCasts_S1x1_S1x1x1) (pieces_shapes q) rfl rfl
    (ix3 n (0 : Fin 1) (0 : Fin 1)) n rfl (ix3 (0 : Fin 1) (0 : Fin 1) (0 : Fin 1)) (fun b hb => by
      match b with
      | ⟨0, _⟩ => exact absurd rfl hb
      | ⟨1, _⟩ => rfl
      | ⟨2, _⟩ => rfl)).trans ?_
  exact shapeCast_apply _ shapeCasts_S1x1_S1x1x1 _ (ix2 (0 : Fin 1) (0 : Fin 1)) (by
    rw [Shape.rowMajor_val_three, Shape.rowMajor_val_two]; rfl)

end Cert.Hist.Kern

end
-- ==== Proof.KernelLayout.lean ====
/-
  The output block's layout, read at an index, at the ideal values.

  The block `[1, 96, 4, 4]` is three `[32, 4, 4]` slabs laid along the channel axis. In the first, entry `(k, r, s)` is
  the four quadrants' counts of bin `k` added, times 2⁻¹⁸, whatever `(r, s)`; in the second it is the count of bin `k` in
  the quadrant `(r / 2, s / 2)` times 2⁻¹⁶ (two by two blocks joined along the columns, then along the rows); the third
  is zero.
-/
import proofs.«153028_j50165218017745_2_alg».proof.Proof.KernelShape
import proofs.«153028_j50165218017745_2_alg».proof.Proof.Spec
import Idealize.ShloMosaic.Lib.ValueLayout
import Idealize.ShloMosaic.Lib.Pipeline.Value
import Idealize.ShloMosaic.PureOps.Ideal.Laws

noncomputable section

namespace Cert.Hist.Kern

open Idealize.ShloMosaic Idealize.ShloMosaic.ValueIdx
open Cert.KernelIdeal Cert.KernelIdeal.Gen

/-- A vector of 32 recast as a `[32, 1, 1]` column reads, at `(k, 0, 0)`, the vector at `k`. -/
theorem column_apply (V : FVec Ideal S32 .f32) (k : Fin 32) :
    shapeCast S32x1x1 (shapeCast S32x1x1 V shapeCasts_S32_S32x1x1) shapeCasts_S32x1x1_S32x1x1
      (ix3 k (0 : Fin 1) (0 : Fin 1)) = V (ix1 k) := by
  rw [shapeCast_self]
  exact shapeCast_apply V shapeCasts_S32_S32x1x1 _ (ix1 k) (by
    rw [Shape.rowMajor_val_three, Shape.rowMajor_val_one]
    show k.val = (k.val * 1 + 0) * 1 + 0
    omega)

/-- The column spread over a 4 × 4 grid reads the vector at `k` everywhere. -/
theorem spread44_apply (V : FVec Ideal S32 .f32) (k : Fin 32) (r s : Fin 4) :
    broadcastTo S32x4x4 (shapeCast S32x1x1 (shapeCast S32x1x1 V shapeCasts_S32_S32x1x1) shapeCasts_S32x1x1_S32x1x1)
      broadcasts_S32x1x1_S32x4x4 (ix3 k r s) = V (ix1 k) := by
  refine (broadcastTo_apply _ broadcasts_S32x1x1_S32x4x4 (ix3 k r s) (ix3 k (0 : Fin 1) (0 : Fin 1)) fun a => ?_).trans
    (column_apply V k)
  match a with
  | ⟨0, _⟩ => show k.val = if (32 : Nat) = 1 then 0 else k.val; rw [if_neg (by decide)]
  | ⟨1, _⟩ => show 0 = if (1 : Nat) = 1 then 0 else r.val; rw [if_pos rfl]
  | ⟨2, _⟩ => show 0 = if (1 : Nat) = 1 then 0 else s.val; rw [if_pos rfl]

/-- The column spread over a 2 × 2 grid likewise. -/
theorem spread22_apply (V : FVec Ideal S32 .f32) (k : Fin 32) (r s : Fin 2) :
    broadcastTo S32x2x2 (shapeCast S32x1x1 (shapeCast S32x1x1 V shapeCasts_S32_S32x1x1) shapeCasts_S32x1x1_S32x1x1)
      broadcasts_S32x1x1_S32x2x2 (ix3 k r s) = V (ix1 k) := by
  refine (broadcastTo_apply _ broadcasts_S32x1x1_S32x2x2 (ix3 k r s) (ix3 k (0 : Fin 1) (0 : Fin 1)) fun a => ?_).trans
    (column_apply V k)
  match a with
  | ⟨0, _⟩ => show k.val = if (32 : Nat) = 1 then 0 else k.val; rw [if_neg (by decide)]
  | ⟨1, _⟩ => show 0 = if (1 : Nat) = 1 then 0 else r.val; rw [if_pos rfl]
  | ⟨2, _⟩ => show 0 = if (1 : Nat) = 1 then 0 else s.val; rw [if_pos rfl]

/-- The first slab: the four count vectors added and scaled, the same at every `(r, s)`. -/
theorem slab0_apply (tl tr bl br : FVec Ideal S32 .f32) (k : Fin 32) (r s : Fin 4) :
    k0_pay298 tl tr bl br (ix3 k r s)
      = (tl (ix1 k) + tr (ix1 k) + bl (ix1 k) + br (ix1 k)) * Ideal.ofBits .f32 0x36800000#32 := by
  unfold k0_pay298
  exact spread44_apply _ k r s

/-- The count vector of the quadrant `(qi, qj)`. -/
def pick {α : Type} (qi qj : Fin 2) (tl tr bl br : α) : α :=
  if qi.val = 0 then (if qj.val = 0 then tl else tr) else (if qj.val = 0 then bl else br)

/-- The second slab: at `(k, r, s)` the count of bin `k` in the quadrant `(r / 2, s / 2)`, scaled. -/
theorem slab1_apply (tl tr bl br : FVec Ideal S32 .f32) (k : Fin 32) (r s : Fin 4) :
    k0_pay299 tl tr bl br (Scalar.ofBits .f32 0x37800000#32) (ix3 k r s)
      = pick (halfOf r) (halfOf s) tl tr bl br (ix1 k) * Ideal.ofBits .f32 0x37800000#32 := by
  unfold k0_pay299
  by_cases hr : r.val < 2
  · refine (concatenate_pair_apply_left (t := S32x4x4) (s₁ := S32x2x4) (s₂ := S32x2x4) (1 : Fin 3) _ _
      concatenates_S32x2x4_S32x2x4_S32x4x4_d1 (ix3 k r s) rfl (ix3 k (⟨r.val, hr⟩ : Fin 2) s) (fun b => by
        match b with
        | ⟨0, _⟩ => rfl
        | ⟨1, _⟩ => rfl
        | ⟨2, _⟩ => rfl)).trans ?_
    by_cases hs : s.val < 2
    · refine (concatenate_pair_apply_left (t := S32x2x4) (s₁ := S32x2x2) (s₂ := S32x2x2) (2 : Fin 3) _ _
        concatenates_S32x2x2_S32x2x2_S32x2x4_d2 (ix3 k (⟨r.val, hr⟩ : Fin 2) s) rfl
        (ix3 k (⟨r.val, hr⟩ : Fin 2) (⟨s.val, hs⟩ : Fin 2)) (fun b => by
          match b with
          | ⟨0, _⟩ => rfl
          | ⟨1, _⟩ => rfl
          | ⟨2, _⟩ => rfl)).trans ?_
      refine (spread22_apply _ k _ _).trans ?_
      have e : pick (halfOf r) (halfOf s) tl tr bl br = tl := by
        unfold pick halfOf
        rw [if_pos (show r.val / 2 = 0 by omega), if_pos (show s.val / 2 = 0 by omega)]
      rw [e]; rfl
    · refine (concatenate_pair_apply_right (t := S32x2x4) (s₁ := S32x2x2) (s₂ := S32x2x2) (2 : Fin 3) _ _
        concatenates_S32x2x2_S32x2x2_S32x2x4_d2 (ix3 k (⟨r.val, hr⟩ : Fin 2) s) rfl rfl
        (ix3 k (⟨r.val, hr⟩ : Fin 2) (⟨s.val - 2, by have := s.isLt; omega⟩ : Fin 2)) (fun b hb => by
          match b with
          | ⟨0, _⟩ => rfl
          | ⟨1, _⟩ => rfl
          | ⟨2, _⟩ => exact absurd rfl hb) (by show s.val - 2 + 2 = s.val; omega)).trans ?_
      refine (spread22_apply _ k _ _).trans ?_
      have e : pick (halfOf r) (halfOf s) tl tr bl br = tr := by
        unfold pick halfOf
        have := s.isLt
        rw [if_pos (show r.val / 2 = 0 by omega), if_neg (show ¬ s.val / 2 = 0 by omega)]
      rw [e]; rfl
  · refine (concatenate_pair_apply_right (t := S32x4x4) (s₁ := S32x2x4) (s₂ := S32x2x4) (1 : Fin 3) _ _
      concatenates_S32x2x4_S32x2x4_S32x4x4_d1 (ix3 k r s) rfl rfl
      (ix3 k (⟨r.val - 2, by have := r.isLt; omega⟩ : Fin 2) s) (fun b hb => by
        match b with
        | ⟨0, _⟩ => rfl
        | ⟨1, _⟩ => exact absurd rfl hb
        | ⟨2, _⟩ => rfl) (by show r.val - 2 + 2 = r.val; omega)).trans ?_
    by_cases hs : s.val < 2
    · refine (concatenate_pair_apply_left (t := S32x2x4) (s₁ := S32x2x2) (s₂ := S32x2x2) (2 : Fin 3) _ _
        concatenates_S32x2x2_S32x2x2_S32x2x4_d2 (ix3 k (⟨r.val - 2, by have := r.isLt; omega⟩ : Fin 2) s) rfl
        (ix3 k (⟨r.val - 2, by have := r.isLt; omega⟩ : Fin 2) (⟨s.val, hs⟩ : Fin 2)) (fun b => by
          match b with
          | ⟨0, _⟩ => rfl
          | ⟨1, _⟩ => rfl
          | ⟨2, _⟩ => rfl)).trans ?_
      refine (spread22_apply _ k _ _).trans ?_
      have e : pick (halfOf r) (halfOf s) tl tr bl br = bl := by
        unfold pick halfOf
        have := r.isLt
        rw [if_neg (show ¬ r.val / 2 = 0 by omega), if_pos (show s.val / 2 = 0 by omega)]
      rw [e]; rfl
    · refine (concatenate_pair_apply_right (t := S32x2x4) (s₁ := S32x2x2) (s₂ := S32x2x2) (2 : Fin 3) _ _
        concatenates_S32x2x2_S32x2x2_S32x2x4_d2 (ix3 k (⟨r.val - 2, by have := r.isLt; omega⟩ : Fin 2) s) rfl rfl
        (ix3 k (⟨r.val - 2, by have := r.isLt; omega⟩ : Fin 2) (⟨s.val - 2, by have := s.isLt; omega⟩ : Fin 2)) (fun b hb => by
          match b with
          | ⟨0, _⟩ => rfl
          | ⟨1, _⟩ => rfl
          | ⟨2, _⟩ => exact absurd rfl hb) (by show s.val - 2 + 2 = s.val; omega)).trans ?_
      refine (spread22_apply _ k _ _).trans ?_
      have e : pick (halfOf r) (halfOf s) tl tr bl br = br := by
        unfold pick halfOf
        have := r.isLt; have := s.isLt
        rw [if_neg (show ¬ r.val / 2 = 0 by omega), if_neg (show ¬ s.val / 2 = 0 by omega)]
      rw [e]; rfl

/-- Three `[32, 4, 4]` slabs laid along the first axis, read at `(ch, r, s)`: the slab `ch` falls in, at `ch`'s place in it. -/
theorem slabs_apply {α : Type} (x0 x1 x2 : S32x4x4.Idx → α) (ch : Fin 96) (r s : Fin 4) :
    concatenate S96x4x4 0 [⟨S32x4x4, x0⟩, ⟨S32x4x4, x1⟩, ⟨S32x4x4, x2⟩] concatenates_S32x4x4_S32x4x4_S32x4x4_S96x4x4_d0
        (ix3 ch r s)
      = if h0 : ch.val < 32 then x0 (ix3 (⟨ch.val, h0⟩ : Fin 32) r s)
        else if h1 : ch.val < 64 then x1 (ix3 (⟨ch.val - 32, by omega⟩ : Fin 32) r s)
        else x2 (ix3 (⟨ch.val - 64, by have := ch.isLt; omega⟩ : Fin 32) r s) := by
  by_cases h0 : ch.val < 32
  · rw [dif_pos h0]
    exact concatenate_apply_piece (t := S96x4x4) (0 : Fin 3) [⟨S32x4x4, x0⟩, ⟨S32x4x4, x1⟩, ⟨S32x4x4, x2⟩]
      concatenates_S32x4x4_S32x4x4_S32x4x4_S96x4x4_d0
      (ix3 ch r s) 0 (by show 0 < 3; omega) S32x4x4 x0 rfl rfl 0 rfl (ix3 (⟨ch.val, h0⟩ : Fin 32) r s) (fun b hb => by
        match b with
        | ⟨0, _⟩ => exact absurd rfl hb
        | ⟨1, _⟩ => rfl
        | ⟨2, _⟩ => rfl) (by show 0 + ch.val = ch.val; omega)
  · rw [dif_neg h0]
    by_cases h1 : ch.val < 64
    · rw [dif_pos h1]
      exact concatenate_apply_piece (t := S96x4x4) (0 : Fin 3) [⟨S32x4x4, x0⟩, ⟨S32x4x4, x1⟩, ⟨S32x4x4, x2⟩]
        concatenates_S32x4x4_S32x4x4_S32x4x4_S96x4x4_d0
        (ix3 ch r s) 1 (by show 1 < 3; omega) S32x4x4 x1 rfl rfl 32 rfl (ix3 (⟨ch.val - 32, by omega⟩ : Fin 32) r s) (fun b hb => by
          match b with
          | ⟨0, _⟩ => exact absurd rfl hb
          | ⟨1, _⟩ => rfl
          | ⟨2, _⟩ => rfl) (by show 32 + (ch.val - 32) = ch.val; omega)
    · rw [dif_neg h1]
      have := ch.isLt
      exact concatenate_apply_piece (t := S96x4x4) (0 : Fin 3) [⟨S32x4x4, x0⟩, ⟨S32x4x4, x1⟩, ⟨S32x4x4, x2⟩]
        concatenates_S32x4x4_S32x4x4_S32x4x4_S96x4x4_d0
        (ix3 ch r s) 2 (by show 2 < 3; omega) S32x4x4 x2 rfl rfl 64 rfl (ix3 (⟨ch.val - 64, by omega⟩ : Fin 32) r s) (fun b hb => by
          match b with
          | ⟨0, _⟩ => exact absurd rfl hb
          | ⟨1, _⟩ => rfl
          | ⟨2, _⟩ => rfl) (by show 64 + (ch.val - 64) = ch.val; omega)

/-- The whole block at `(0, ch, r, s)`: the slab the channel falls in, at the channel's position inside it. -/
theorem layout_apply (tl tr bl br : FVec Ideal S32 .f32) (u : Fin 1) (ch : Fin 96) (r s : Fin 4) :
    layout tl tr bl br (ix4 u ch r s)
      = if h0 : ch.val < 32 then
          (tl (ix1 ⟨ch.val, h0⟩) + tr (ix1 ⟨ch.val, h0⟩) + bl (ix1 ⟨ch.val, h0⟩) + br (ix1 ⟨ch.val, h0⟩))
            * Ideal.ofBits .f32 0x36800000#32
        else if h1 : ch.val < 64 then
          pick (halfOf r) (halfOf s) tl tr bl br (ix1 (⟨ch.val - 32, by omega⟩ : Fin 32)) * Ideal.ofBits .f32 0x37800000#32
        else Ideal.ofBits .f32 0x00000000#32 := by
  unfold layout k0_pay1
  refine (shapeCast_abc_1abc_apply _ shapeCasts_S96x4x4_S1x96x4x4 u ch r s).trans ?_
  refine (slabs_apply _ _ _ ch r s).trans ?_
  by_cases h0 : ch.val < 32
  · rw [dif_pos h0, dif_pos h0]
    exact slab0_apply tl tr bl br _ r s
  · rw [dif_neg h0, dif_neg h0]
    by_cases h1 : ch.val < 64
    · rw [dif_pos h1, dif_pos h1]
      exact slab1_apply tl tr bl br _ r s
    · rw [dif_neg h1, dif_neg h1]
      rfl

end Cert.Hist.Kern

end
-- ==== Proof.KernelPixel.lean ====
/-
  The body's per-pixel words and weights, and the block's histogram cell.

  At channel `c`, pixel `(i, j)` of the loaded block the body's bin word is the specification's `binOf` of the pixel
  value and its weight is `weightOf` of it (a 1-bit flag widened to 32 bits and read signed is the flag's value); a
  select on "bin word = k" between the weight and zero is the specification's `hit`. With the sums and the layout read
  at an index this gives the block's entry `(0, ch, r, s)` as the specification's formula over the block's pixels.
-/
import proofs.«153028_j50165218017745_2_alg».proof.Proof.KernelSums
import proofs.«153028_j50165218017745_2_alg».proof.Proof.KernelLayout

noncomputable section

open scoped BigOperators

namespace Cert.Hist.Kern

open Idealize.ShloMosaic Idealize.ShloMosaic.ValueIdx
open Cert.KernelIdeal Cert.KernelIdeal.Gen

/-- The body's bin word at a pixel is `binOf` of the pixel value. -/
theorem bins_apply (x0 : Vec Ideal S1x3x512x512 .f32) (c : Fin 3) (i j : Fin 512) :
    k0_pay3 x0 (ix3 c i j) = binOf (x0 (ix4 (0 : Fin 1) c i j)) :=
  congrArg (fun z : EReal => IntOp.minsi 31#32 (IntOp.maxsi 0#32 (Ideal.fptosi 32
      (Ideal.liftRound Int.floor (z * Ideal.ofBits .f32 0x42000000#32)))))
    (shapeCast_1abc_abc_apply x0 shapeCasts_S1x3x512x512_S3x512x512 c i j)

/-- A 1-bit flag widened to 32 bits and read as a signed integer is the flag's value. -/
theorem flag_toInt : ∀ b : BitVec 1, (b.setWidth 32).toInt = (b.toNat : Int) := by decide

/-- The body's weight at a pixel is `weightOf` of the pixel value. -/
theorem wts_apply (x0 : Vec Ideal S1x3x512x512 .f32) (c : Fin 3) (i j : Fin 512) :
    k0_pay4 x0 (ix3 c i j) = weightOf (x0 (ix4 (0 : Fin 1) c i j)) := by
  have e := shapeCast_1abc_abc_apply x0 shapeCasts_S1x3x512x512_S3x512x512 c i j
  have h : ∀ z : EReal, (((((IntOp.andi (Ideal.cmp .oge z (Ideal.ofBits .f32 0x00000000#32))
      (Ideal.cmp .ole z (Ideal.ofBits .f32 0x3F800000#32))).setWidth 32).toInt : ℝ) : EReal)) = weightOf z := fun z => by
    unfold weightOf
    rw [flag_toInt, Int.cast_natCast]
  exact (congrArg (fun z : EReal => (((((IntOp.andi (Ideal.cmp .oge z (Ideal.ofBits .f32 0x00000000#32))
      (Ideal.cmp .ole z (Ideal.ofBits .f32 0x3F800000#32))).setWidth 32).toInt : ℝ) : EReal))) e).trans (h _)

/-- Selecting the weight where the bin word is `k`, zero elsewhere. -/
theorem select_eq (a k : BitVec 32) (w : EReal) :
    Scalar.select (IntOp.cmpi .eq a k) w (Ideal.ofBits .f32 0x00000000#32) = if a = k then w else 0 := by
  rw [Ideal.ofBits_zero_f32]
  unfold Scalar.select IntOp.cmpi
  by_cases h : a = k
  · subst h; simp
  · have hb : (a == k) = false := beq_eq_false_iff_ne.mpr h
    rw [if_neg h]
    show (if BitVec.ofBool (a == k) = 1 then w else 0) = 0
    rw [hb]
    exact if_neg (by decide)

/-- The weighted number of pixels of the block's quadrant `(qi, qj)`, all channels, in bin `n`. -/
def cell (x0 : Vec Ideal S1x3x512x512 .f32) (qi qj : Fin 2) (n : Nat) : EReal :=
  ∑ r : Fin 256, ∑ s : Fin 256, ∑ c : Fin 3, hit n (x0 (ix4 (0 : Fin 1) c (half qi r) (half qj s)))

/-- The plane of bin word `n` at a pixel, over the block's bin words and weights: the three channels' hits. -/
theorem plane_hits (x0 : Vec Ideal S1x3x512x512 .f32) (n : Nat) (i j : Fin 512) :
    plane (BitVec.ofNat 32 n) (k0_pay3 x0) (k0_pay4 x0) (ix2 i j) = ∑ c : Fin 3, hit n (x0 (ix4 (0 : Fin 1) c i j)) := by
  rw [plane_apply]
  refine Finset.sum_congr rfl fun c _ => ?_
  rw [bins_apply, wts_apply, select_eq]
  rfl

theorem countTL (x0 : Vec Ideal S1x3x512x512 .f32) (k : Fin 32) :
    stack (fun w => quadTL (plane w (k0_pay3 x0) (k0_pay4 x0))) (ix1 k) = cell x0 0 0 k.val := by
  rw [stack_apply, quadTL_apply]
  exact Finset.sum_congr rfl fun r _ => Finset.sum_congr rfl fun s _ => plane_hits x0 k.val _ _

theorem countTR (x0 : Vec Ideal S1x3x512x512 .f32) (k : Fin 32) :
    stack (fun w => quadTR (plane w (k0_pay3 x0) (k0_pay4 x0))) (ix1 k) = cell x0 0 1 k.val := by
  rw [stack_apply, quadTR_apply]
  exact Finset.sum_congr rfl fun r _ => Finset.sum_congr rfl fun s _ => plane_hits x0 k.val _ _

theorem countBL (x0 : Vec Ideal S1x3x512x512 .f32) (k : Fin 32) :
    stack (fun w => quadBL (plane w (k0_pay3 x0) (k0_pay4 x0))) (ix1 k) = cell x0 1 0 k.val := by
  rw [stack_apply, quadBL_apply]
  exact Finset.sum_congr rfl fun r _ => Finset.sum_congr rfl fun s _ => plane_hits x0 k.val _ _

theorem countBR (x0 : Vec Ideal S1x3x512x512 .f32) (k : Fin 32) :
    stack (fun w => quadBR (plane w (k0_pay3 x0) (k0_pay4 x0))) (ix1 k) = cell x0 1 1 k.val := by
  rw [stack_apply, quadBR_apply]
  exact Finset.sum_congr rfl fun r _ => Finset.sum_congr rfl fun s _ => plane_hits x0 k.val _ _

/-- The count vector of quadrant `(qi, qj)` at bin `k`. -/
theorem count_pick (x0 : Vec Ideal S1x3x512x512 .f32) (qi qj : Fin 2) (k : Fin 32) :
    pick qi qj (stack (fun w => quadTL (plane w (k0_pay3 x0) (k0_pay4 x0))))
      (stack (fun w => quadTR (plane w (k0_pay3 x0) (k0_pay4 x0))))
      (stack (fun w => quadBL (plane w (k0_pay3 x0) (k0_pay4 x0))))
      (stack (fun w => quadBR (plane w (k0_pay3 x0) (k0_pay4 x0)))) (ix1 k) = cell x0 qi qj k.val := by
  unfold pick
  have hi : qi = 0 ∨ qi = 1 := by
    rcases qi with ⟨v, hv⟩
    rcases v with _ | v
    · exact Or.inl rfl
    · right; apply Fin.ext; show v + 1 = 1; omega
  have hj : qj = 0 ∨ qj = 1 := by
    rcases qj with ⟨v, hv⟩
    rcases v with _ | v
    · exact Or.inl rfl
    · right; apply Fin.ext; show v + 1 = 1; omega
  rcases hi with rfl | rfl <;> rcases hj with rfl | rfl
  · rw [if_pos (show (0 : Fin 2).val = 0 from rfl), if_pos (show (0 : Fin 2).val = 0 from rfl)]; exact countTL x0 k
  · rw [if_pos (show (0 : Fin 2).val = 0 from rfl), if_neg (show ¬ (1 : Fin 2).val = 0 by decide)]; exact countTR x0 k
  · rw [if_neg (show ¬ (1 : Fin 2).val = 0 by decide), if_pos (show (0 : Fin 2).val = 0 from rfl)]; exact countBL x0 k
  · rw [if_neg (show ¬ (1 : Fin 2).val = 0 by decide), if_neg (show ¬ (1 : Fin 2).val = 0 by decide)]; exact countBR x0 k

/-- THE BLOCK AT AN INDEX: the specification's formula over the block's own pixels. -/
theorem result_apply (x0 : Vec Ideal S1x3x512x512 .f32) (u : Fin 1) (ch : Fin 96) (r s : Fin 4) :
    result (k0_pay3 x0) (k0_pay4 x0) (ix4 u ch r s)
      = if ch.val < 32 then
          (cell x0 0 0 ch.val + cell x0 0 1 ch.val + cell x0 1 0 ch.val + cell x0 1 1 ch.val)
            * Ideal.ofBits .f32 0x36800000#32
        else if ch.val < 64 then
          cell x0 (halfOf r) (halfOf s) (ch.val - 32) * Ideal.ofBits .f32 0x37800000#32
        else Ideal.ofBits .f32 0x00000000#32 := by
  unfold result
  rw [layout_apply]
  by_cases h0 : ch.val < 32
  · rw [dif_pos h0, if_pos h0, countTL, countTR, countBL, countBR]
  · rw [dif_neg h0, if_neg h0]
    by_cases h1 : ch.val < 64
    · rw [dif_pos h1, if_pos h1, count_pick]
    · rw [dif_neg h1, if_neg h1]

end Cert.Hist.Kern

end
-- ==== Proof.KernelValue.lean ====
/-
  From the blocks to the whole output array.

  Grid point `t` loads image `t` (block `(t, 0, 0, 0)` of the input) and writes back block `(t, 0, 0, 0)` of the output.
  What it writes is the histogram of its own image, that is block `t` of the specification's array `G` of the whole
  input; the 64 blocks cover the output, so after the run the output array is `G` of the input array.
-/
import proofs.«153028_j50165218017745_2_alg».proof.Proof.Gen.KernelIdeal.Value
import proofs.«153028_j50165218017745_2_alg».proof.Proof.KernelPixel

set_option maxRecDepth 16384

noncomputable section

open scoped BigOperators

namespace Cert.Hist.KernValue

open Cert.KernelIdeal Cert.KernelIdeal.Gen Idealize.ShloMosaic Idealize.ShloMosaic.TcCoe Idealize.SL.Sem
open Idealize.ShloMosaic.ValueIdx
open Idealize.ShloMosaic.Pipeline (Dat)
open Cert.Hist Cert.Hist.Kern

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The printed index maps, decided over the 64 grid points: both windows' block index at point `t` is `(t, 0, 0, 0)`. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The image a grid point works on. -/
def imageOf (t : Fin cfg0.N) : Fin 64 := ⟨t.val, Nat.lt_of_lt_of_eq t.isLt N_0⟩

/-- The block's entry `(0, ch, r, s)` is the specification's array at `(b, ch, r, s)` when the block's pixels are image
    `b`'s. -/
theorem block_cell (x0 : Vec Ideal S1x3x512x512 .f32) (X : SImg.Idx → EReal) (b : Fin 64)
    (hx : ∀ (c : Fin 3) (i j : Fin 512), x0 (ix4 (0 : Fin 1) c i j) = X (ix4 b c i j))
    (y : S1x96x4x4.Idx) (i : SOut.Idx) (h0 : (i 0).val = b.val) (h1 : (i 1).val = (y 1).val)
    (h2 : (i 2).val = (y 2).val) (h3 : (i 3).val = (y 3).val) :
    result (k0_pay3 x0) (k0_pay4 x0) y = G X i := by
  obtain ⟨u, ch, r, s, rfl⟩ : ∃ (u : Fin 1) (ch : Fin 96) (r s : Fin 4), y = ix4 u ch r s :=
    ⟨y 0, y 1, y 2, y 3, eq_ix4 y⟩
  have hi : i = ix4 b ch r s := by
    rw [eq_ix4 i]
    have e0 : i 0 = b := Fin.ext h0
    have e1 : i 1 = ch := Fin.ext h1
    have e2 : i 2 = r := Fin.ext h2
    have e3 : i 3 = s := Fin.ext h3
    rw [e0, e1, e2, e3]
    rfl
  subst hi
  have hc : ∀ (qi qj : Fin 2) (n : Nat), cell x0 qi qj n = count X b qi qj n := fun qi qj n => by
    unfold cell count
    exact Finset.sum_congr rfl fun r _ => Finset.sum_congr rfl fun s _ => Finset.sum_congr rfl fun c _ => by rw [hx]
  rw [result_apply]
  unfold G
  simp only [hc]

/-- The loaded block at point `t` holds image `t`'s pixels. -/
theorem iblk_apply (c : Dev nD) (t : Fin cfg0.N) (ch : Fin 3) (i j : Fin 512) :
    iblk m c 0 t (ix4 (0 : Fin 1) ch i j) = V m c main_arg0 (ix4 (imageOf t) ch i j) := by
  obtain ⟨e0, e1, e2, e3, -⟩ := idx_facts t
  show V m c main_arg0 (((cfg0.win 0).blk t).view.emb (ix4 (0 : Fin 1) ch i j)) = V m c main_arg0 (ix4 (imageOf t) ch i j)
  refine congrArg (V m c main_arg0) (funext fun a => Fin.ext ?_)
  match a with
  | ⟨0, _⟩ => show win0_0.index t (0 : Fin 4) * 1 + 1 * 0 = t.val; omega
  | ⟨1, _⟩ => show win0_0.index t (1 : Fin 4) * 3 + 1 * ch.val = ch.val; omega
  | ⟨2, _⟩ => show win0_0.index t (2 : Fin 4) * 512 + 1 * i.val = i.val; omega
  | ⟨3, _⟩ => show win0_0.index t (3 : Fin 4) * 512 + 1 * j.val = j.val; omega

/-- WHAT POINT `t` WRITES BACK is block `t` of the specification's array of the input as the region finds it. -/
theorem flushed_eq (c : Dev nD) (t : Fin cfg0.N) :
    (dats m 0 c).flushed 1 t = ((cfg0.win 1).blk t).view.read (Elt Ideal) (G (V m c main_arg0)) := by
  rw [Cert.KernelIdeal.Value.flushed1, out_eq]
  rw [View.canon_unit_zero hz4]
  simp only [View.ld_unit_zero (S := S1x3x512x512) hz4]
  obtain ⟨-, -, -, -, e0, e1, e2, e3⟩ := idx_facts t
  funext y
  show result (k0_pay3 (iblk m c 0 t)) (k0_pay4 (iblk m c 0 t)) y = G (V m c main_arg0) (((cfg0.win 1).blk t).view.emb y)
  refine block_cell (iblk m c 0 t) (V m c main_arg0) (imageOf t) (iblk_apply m c t) y _ ?_ ?_ ?_ ?_
  · show win0_1.index t (0 : Fin 4) * 1 + 1 * (y 0).val = t.val
    have : (y 0).val < 1 := (y 0).isLt
    omega
  · show win0_1.index t (1 : Fin 4) * 96 + 1 * (y 1).val = (y 1).val; omega
  · show win0_1.index t (2 : Fin 4) * 4 + 1 * (y 2).val = (y 2).val; omega
  · show win0_1.index t (3 : Fin 4) * 4 + 1 * (y 3).val = (y 3).val; omega

/-- An index of the output array is in point `t`'s block iff each coordinate is in the block's range on its axis. -/
theorem mem_blk (t : Fin cfg0.N) (i : S64x96x4x4.Idx) :
    i ∈ ((cfg0.win 1).blk t).view.set ↔ ∀ a : Fin 4, win0_1.index t a * S1x96x4x4.size a ≤ (i a).val
      ∧ (i a).val < win0_1.index t a * S1x96x4x4.size a + S1x96x4x4.size a := by
  show i ∈ ((View.whole main_v0).slice (win0_1.rect t)).set ↔ _
  rw [View.set_slice_whole, Rect.mem_set_unit]
  exact Iff.rfl

/-- Every index of the output lies in the block of the point of its image. -/
theorem cover (i : S64x96x4x4.Idx) :
    ∃ t : Fin cfg0.N, (cfg0.win 1).flush t = true ∧ i ∈ ((cfg0.win 1).blk t).view.set := by
  have hi0 : (i 0).val < 64 := (i 0).isLt
  have hi1 : (i 1).val < 96 := (i 1).isLt
  have hi2 : (i 2).val < 4 := (i 2).isLt
  have hi3 : (i 3).val < 4 := (i 3).isLt
  let t : Fin cfg0.N := ⟨(i 0).val, Nat.lt_of_lt_of_eq hi0 N_0.symm⟩
  obtain ⟨-, -, -, -, e0, e1, e2, e3⟩ := idx_facts t
  have et : t.val = (i 0).val := rfl
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 96 ≤ (i 1).val ∧ (i 1).val < win0_1.index t (1 : Fin 4) * 96 + 96; omega
  | ⟨2, _⟩ => show win0_1.index t (2 : Fin 4) * 4 ≤ (i 2).val ∧ (i 2).val < win0_1.index t (2 : Fin 4) * 4 + 4; omega
  | ⟨3, _⟩ => show win0_1.index t (3 : Fin 4) * 4 ≤ (i 3).val ∧ (i 3).val < win0_1.index t (3 : Fin 4) * 4 + 4; omega

/-- THE OUTPUT ARRAY after the run is the specification's array of the input array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The kernel's run: it terminates with the output array at `G` of the input array, the input unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.Hist.KernValue

end
-- ==== Proof.LibIdxSums.lean ====
/-
  Sums over the index set of a shape of rank 1, 4 or 6, written as nested sums over the coordinates.

  The index set of a shape with literal extents is the product of its coordinate ranges; a sum over it, in
  any commutative additive monoid, is the iterated sum over the coordinates in order.
-/
import Idealize.ShloMosaic.Lib.ValueIdx
import Idealize.ShloMosaic.Lib.ValueIdxRank6

open scoped BigOperators

namespace Cert.Hist.Ref

open Idealize.ShloMosaic Idealize.ShloMosaic.ValueIdx

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-4 index set is the product of its four coordinate ranges. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A rank-6 index set is the product of its six coordinate ranges. -/
def idxEquiv6 {n0 n1 n2 n3 n4 n5 : Nat} :
    (⟨6, ![n0, n1, n2, n3, n4, n5]⟩ : Shape).Idx ≃ Fin n0 × Fin n1 × Fin n2 × Fin n3 × Fin n4 × Fin n5 where
  toFun i := (i 0, i 1, i 2, i 3, i 4, i 5)
  invFun p := ix6 p.1 p.2.1 p.2.2.1 p.2.2.2.1 p.2.2.2.2.1 p.2.2.2.2.2
  left_inv i := (eq_ix6 i).symm
  right_inv _ := rfl

/-- A sum over a rank-6 index set is the sixfold sum over the coordinates. -/
theorem sum_idx6 {M : Type*} [AddCommMonoid M] {n0 n1 n2 n3 n4 n5 : Nat}
    (f : (⟨6, ![n0, n1, n2, n3, n4, n5]⟩ : Shape).Idx → M) :
    ∑ i, f i = ∑ a : Fin n0, ∑ b : Fin n1, ∑ c : Fin n2, ∑ d : Fin n3, ∑ e : Fin n4, ∑ g : Fin n5,
      f (ix6 a b c d e g) := by
  rw [← Equiv.sum_comp
    (idxEquiv6 (n0 := n0) (n1 := n1) (n2 := n2) (n3 := n3) (n4 := n4) (n5 := n5)).symm f]
  simp only [Fintype.sum_prod_type]
  rfl

end Cert.Hist.Ref
-- ==== Proof.RefConsts.lean ====
/-
  The float constants of the reference, as the extended reals their patterns denote, and the two divisions
  by a power of two as multiplications by its reciprocal.
-/
import Idealize.ShloMosaic.PureOps.Ideal

noncomputable section

namespace Cert.Hist.Ref

open Idealize.ShloMosaic

/-- The pattern of `+0.0` denotes 0. -/
theorem ofBits_zero : Ideal.ofBits .f32 0x00000000#32 = 0 := by
  simp [Ideal.ofBits, Ideal.ieee]

/-- The pattern `0x47800000` denotes 65536 = 2¹⁶. -/
theorem ofBits_65536 : Ideal.ofBits .f32 0x47800000#32 = ((65536 : ℝ) : EReal) := by
  simp [Ideal.ofBits, Ideal.ieee, -EReal.coe_mul]; norm_num

/-- The pattern `0x48800000` denotes 262144 = 2¹⁸. -/
theorem ofBits_262144 : Ideal.ofBits .f32 0x48800000#32 = ((262144 : ℝ) : EReal) := by
  simp [Ideal.ofBits, Ideal.ieee, -EReal.coe_mul]; norm_num

/-- The pattern `0x37800000` denotes 1/65536 = 2⁻¹⁶. -/
theorem ofBits_inv65536 : Ideal.ofBits .f32 0x37800000#32 = ((1 / 65536 : ℝ) : EReal) := by
  simp [Ideal.ofBits, Ideal.ieee, -EReal.coe_mul]; norm_num

/-- The pattern `0x36800000` denotes 1/262144 = 2⁻¹⁸. -/
theorem ofBits_inv262144 : Ideal.ofBits .f32 0x36800000#32 = ((1 / 262144 : ℝ) : EReal) := by
  simp [Ideal.ofBits, Ideal.ieee, -EReal.coe_mul]; norm_num

/-- Dividing by 2¹⁶ is multiplying by 2⁻¹⁶, at every extended real. -/
theorem div_65536 (x : EReal) :
    Ideal.div x (Ideal.ofBits .f32 0x47800000#32) = x * Ideal.ofBits .f32 0x37800000#32 := by
  rw [ofBits_65536, ofBits_inv65536, Ideal.div_coe (by norm_num)]

/-- Dividing by 2¹⁸ is multiplying by 2⁻¹⁸, at every extended real. -/
theorem div_262144 (x : EReal) :
    Ideal.div x (Ideal.ofBits .f32 0x48800000#32) = x * Ideal.ofBits .f32 0x36800000#32 := by
  rw [ofBits_262144, ofBits_inv262144, Ideal.div_coe (by norm_num)]

end Cert.Hist.Ref

end
-- ==== Proof.LibIndexWords.lean ====
/-
  Small naturals as 32-bit index words.

  An index computed on the host as a sum of two iotas is a 32-bit word `ofNat a + ofNat b` with `a + b` far below
  `2^31`. Such a word is not negative, reads back as the natural `a + b` both unsigned and signed, and jnp's
  negative-index wrap — `select (w < 0) (w + n) w` — leaves it unchanged.
-/
import Idealize.ShloMosaic.PureOps.Ideal
import Idealize.ShloMosaic.Lib.ValueIdx

namespace Cert.IndexWords

open Idealize.ShloMosaic Idealize.ShloMosaic.ValueIdx

/-- A natural below `2^31` as a 32-bit word reads back unsigned as itself. -/
theorem toNat_small (n : Nat) (h : n < 2147483648) : (BitVec.ofNat 32 n).toNat = n := by
  rw [BitVec.toNat_ofNat]; omega

/-- … and signed as itself: its sign bit is clear. -/
theorem toInt_small (n : Nat) (h : n < 2147483648) : (BitVec.ofNat 32 n).toInt = (n : Int) := by
  rw [BitVec.toInt_eq_toNat_of_lt (by rw [toNat_small n h]; omega), toNat_small n h]

/-- … so the natural a gather reads off it (signed, negatives to 0) is itself. -/
theorem toInt_toNat_small (n : Nat) (h : n < 2147483648) : (BitVec.ofNat 32 n).toInt.toNat = n := by
  rw [toInt_small n h]; rfl

/-- It is not below zero as a signed word. -/
theorem not_neg_small (n : Nat) (h : n < 2147483648) : IntOp.cmpi .slt (BitVec.ofNat 32 n) 0#32 = 0#1 := by
  unfold IntOp.cmpi
  have : (BitVec.ofNat 32 n).slt 0#32 = false := by
    rw [BitVec.slt, toInt_small n h]
    simp
  simp only [this]
  rfl

/-- The sum of two small words is the word of the sum. -/
theorem addi_small (a b : Nat) : IntOp.addi (BitVec.ofNat 32 a) (BitVec.ofNat 32 b) = BitVec.ofNat 32 (a + b) := by
  unfold IntOp.addi; rw [BitVec.ofNat_add]

/-- THE NEGATIVE-INDEX WRAP of a sum of two small words keeps the sum: the word is not negative, so the select takes
    its second branch. -/
theorem start_word (a b : Nat) (h : a + b < 2147483648) (X : BitVec 32) :
    Scalar.select (IntOp.cmpi .slt (IntOp.addi (BitVec.ofNat 32 a) (BitVec.ofNat 32 b)) 0#32) X
      (IntOp.addi (BitVec.ofNat 32 a) (BitVec.ofNat 32 b)) = BitVec.ofNat 32 (a + b) := by
  rw [addi_small, not_neg_small _ h, select_zero]

end Cert.IndexWords
-- ==== Proof.RefWords.lean ====
/-
  The integer words of the reference's segment numbers.

  A pixel's bin word is clamped to 0 … 31, so as an unsigned number it is below 32. The word the reference adds
  to it for image `b` and quadrant `(qi, qj)` is the word of `(4·b + 2·qi + qj)·32`, built from words of small
  naturals by wrapping products and sums that do not wrap. The sum of the two, read as a signed integer, is the
  segment number `((2·b₀ + qi₀)·2 + qj₀)·32 + k₀` exactly when the image and quadrant are `b₀, qi₀, qj₀` and the
  bin word is that of `k₀`.
-/
import proofs.«153028_j50165218017745_2_alg».proof.Proof.LibIndexWords

namespace Cert.Hist.Ref

open Idealize.ShloMosaic Cert.IndexWords

/-- A 32-bit word that is not negative as a signed integer and at most 31 is below 32 unsigned. -/
theorem toNat_lt_of_toInt (w : BitVec 32) (h0 : 0 ≤ w.toInt) (h1 : w.toInt ≤ 31) : w.toNat < 32 := by
  have hw := w.isLt
  rw [BitVec.toInt_eq_toNat_cond] at h0 h1
  by_cases hc : 2 * w.toNat < 2 ^ 32
  · rw [if_pos hc] at h0 h1; omega
  · rw [if_neg hc] at h0 h1; omega

/-- A word clamped to 0 … 31 by a signed maximum with 0 and a signed minimum with 31 is below 32 unsigned. -/
theorem clamp_toNat_lt (w : BitVec 32) : (IntOp.minsi 31#32 (IntOp.maxsi 0#32 w)).toNat < 32 := by
  unfold IntOp.minsi IntOp.maxsi
  by_cases h1 : w.slt 0#32 = true
  · rw [if_pos h1]
    have : (31#32 : BitVec 32).slt 0#32 = false := by decide
    rw [this]
    decide
  · rw [if_neg h1]
    have h0 : 0 ≤ w.toInt := by
      have : ¬ w.toInt < (0#32 : BitVec 32).toInt := by
        intro hlt; exact h1 (by rw [BitVec.slt]; exact decide_eq_true hlt)
      have hz : (0#32 : BitVec 32).toInt = 0 := by decide
      rw [hz] at this; omega
    by_cases h2 : (31#32 : BitVec 32).slt w = true
    · rw [if_pos h2]; decide
    · rw [if_neg h2]
      have h31 : w.toInt ≤ 31 := by
        have : ¬ (31#32 : BitVec 32).toInt < w.toInt := by
          intro hlt; exact h2 (by rw [BitVec.slt]; exact decide_eq_true hlt)
        have hz : (31#32 : BitVec 32).toInt = 31 := by decide
        rw [hz] at this; omega
      exact toNat_lt_of_toInt w h0 h31

/-- The word of image `b`, quadrant `(qi, qj)`: products and sums of words of small naturals are the word of the
    natural. -/
theorem base_word (b qi qj : Nat) :
    IntOp.muli (IntOp.addi (IntOp.addi (IntOp.muli (BitVec.ofNat 32 b) 4#32) (IntOp.muli (BitVec.ofNat 32 qi) 2#32))
      (BitVec.ofNat 32 qj)) 32#32 = BitVec.ofNat 32 ((b * 4 + qi * 2 + qj) * 32) := by
  unfold IntOp.muli IntOp.addi
  rw [BitVec.ofNat_mul, BitVec.ofNat_add, BitVec.ofNat_add, BitVec.ofNat_mul, BitVec.ofNat_mul]

/-- THE SEGMENT A PIXEL LANDS IN: the base word of `(b, qi, qj)` plus a bin word below 32, read signed, is the
    segment number of `(b₀, qi₀, qj₀, k₀)` exactly when `b = b₀`, `qi = qi₀`, `qj = qj₀` and the bin word is `k₀`'s. -/
theorem word_hits_iff (b b0 : Fin 64) (qi qi0 qj qj0 : Fin 2) (k0 : Fin 32) (w : BitVec 32) (hw : w.toNat < 32) :
    (IntOp.addi (BitVec.ofNat 32 ((b.val * 4 + qi.val * 2 + qj.val) * 32)) w).toInt
        = (((((b0.val * 2 + qi0.val) * 2 + qj0.val) * 32 + k0.val : Nat)) : Int)
      ↔ (b = b0 ∧ qi = qi0 ∧ qj = qj0 ∧ w = BitVec.ofNat 32 k0.val) := by
  have hb := b.isLt; have hb0 := b0.isLt; have hqi := qi.isLt; have hqi0 := qi0.isLt
  have hqj := qj.isLt; have hqj0 := qj0.isLt; have hk0 := k0.isLt
  have hw' : w = BitVec.ofNat 32 w.toNat := BitVec.eq_of_toNat_eq (by rw [toNat_small _ (by omega)])
  rw [hw', addi_small, toInt_small _ (by omega)]
  constructor
  · intro h
    have h' : (b.val * 4 + qi.val * 2 + qj.val) * 32 + w.toNat
        = ((b0.val * 2 + qi0.val) * 2 + qj0.val) * 32 + k0.val := by exact_mod_cast h
    refine ⟨Fin.ext (by omega), Fin.ext (by omega), Fin.ext (by omega), ?_⟩
    have : w.toNat = k0.val := by omega
    rw [this]
  · rintro ⟨rfl, rfl, rfl, h⟩
    have h2 := congrArg BitVec.toNat h
    rw [toNat_small _ (by omega), toNat_small _ (by omega)] at h2
    rw [h2]
    omega

end Cert.Hist.Ref
-- ==== Proof.RefPixel.lean ====
/-
  The reference's per-pixel values, read at an index.

  At a pixel `i` of the input the clamped bin word is `binOf (X i)` and the weight is `weightOf (X i)`. Reshaped to
  `[64, 3, 2, 256, 2, 256]`, position `(b, c, qi, r, qj, s)` holds pixel `(b, c, 256·qi + r, 256·qj + s)`: both
  have the same row-major position. The region word at `(b, ·, qi, ·, qj, ·)` is the word of `(4·b + 2·qi + qj)·32`,
  and the segment word of a position is that plus the bin word.
-/
import proofs.«153028_j50165218017745_2_alg».proof.Proof.Spec
import proofs.«153028_j50165218017745_2_alg».proof.Proof.Gen.ReferenceIdeal.Read
import proofs.«153028_j50165218017745_2_alg».proof.Proof.RefWords
import Idealize.ShloMosaic.Lib.ValueIdxRank6

noncomputable section

namespace Cert.Hist.Ref

open Idealize.ShloMosaic Idealize.ShloMosaic.ValueIdx Cert.ReferenceIdeal Cert.ReferenceIdeal.Gen
  Cert.ReferenceIdeal.Read

/-- The clamped bin word of pixel `i`. -/
theorem v4_apply (X : SImg.Idx → EReal) (i : SImg.Idx) : val_main_v4 (F := Ideal) X i = binOf (X i) := by
  rw [val_main_v4_apply, val_main_call0_v4_apply, val_main_call0_v3_apply, val_main_c_0_apply,
    val_main_call0_v2_apply, val_main_call0_v1_apply, val_main_call0_v0_apply, val_main_c_apply,
    val_main_v3_apply, val_main_v2_apply, val_main_v1_apply, val_main_v0_apply, val_main_cst_apply]
  rfl

/-- The weight of pixel `i`. -/
theorem v10_apply (X : SImg.Idx → EReal) (i : SImg.Idx) : val_main_v10 (F := Ideal) X i = weightOf (X i) := by
  rw [val_main_v10_apply, val_main_v9_apply, val_main_v6_apply, val_main_v8_apply, val_main_v5_apply,
    val_main_v7_apply, val_main_cst_1_apply, val_main_cst_2_apply]
  rfl

/-- Position `(b, c, qi, r, qj, s)` of the six-axis view and pixel `(b, c, 256·qi + r, 256·qj + s)` have the same
    row-major position. -/
theorem pos_six_four (b : Fin 64) (c : Fin 3) (qi : Fin 2) (r : Fin 256) (qj : Fin 2) (s : Fin 256) :
    (S64x3x512x512.rowMajor (ix4 b c (half qi r) (half qj s))).val
      = (S64x3x2x256x2x256.rowMajor (ix6 b c qi r qj s)).val := by
  rw [Shape.rowMajor_val_four, Shape.rowMajor_val_six]
  show ((b.val * 3 + c.val) * 512 + (256 * qi.val + r.val)) * 512 + (256 * qj.val + s.val)
    = ((((b.val * 3 + c.val) * 2 + qi.val) * 256 + r.val) * 2 + qj.val) * 256 + s.val
  have := qi.isLt; have := qj.isLt; have := r.isLt; have := s.isLt
  omega

/-- The bin word at a position of the six-axis view. -/
theorem v11_apply (X : SImg.Idx → EReal) (b : Fin 64) (c : Fin 3) (qi : Fin 2) (r : Fin 256) (qj : Fin 2)
    (s : Fin 256) :
    val_main_v11 (F := Ideal) X (ix6 b c qi r qj s) = binOf (X (ix4 b c (half qi r) (half qj s))) := by
  unfold val_main_v11
  exact (shapeCast_apply (val_main_v4 (F := Ideal) X) shapeCasts_S64x3x512x512_S64x3x2x256x2x256
    (ix6 b c qi r qj s) (ix4 b c (half qi r) (half qj s)) (pos_six_four b c qi r qj s)).trans (v4_apply X _)

/-- The weight at a position of the six-axis view. -/
theorem v12_apply (X : SImg.Idx → EReal) (b : Fin 64) (c : Fin 3) (qi : Fin 2) (r : Fin 256) (qj : Fin 2)
    (s : Fin 256) :
    val_main_v12 (F := Ideal) X (ix6 b c qi r qj s) = weightOf (X (ix4 b c (half qi r) (half qj s))) := by
  unfold val_main_v12
  exact (shapeCast_apply (val_main_v10 (F := Ideal) X) shapeCasts_S64x3x512x512_S64x3x2x256x2x256
    (ix6 b c qi r qj s) (ix4 b c (half qi r) (half qj s)) (pos_six_four b c qi r qj s)).trans (v10_apply X _)

/-- The image counter, viewed `[64, 1, 1, 1, 1, 1]`, holds the word of its first coordinate. -/
theorem v14_apply (i : S64x1x1x1x1x1.Idx) : val_main_v14 (F := Ideal) i = BitVec.ofNat 32 (i 0).val := by
  unfold val_main_v14
  refine (shapeCast_apply (val_main_v13 (F := Ideal)) shapeCasts_S64_S64x1x1x1x1x1 i
    (ix1 (⟨(i 0).val, (i 0).isLt⟩ : Fin 64)) ?_).trans rfl
  rw [Shape.rowMajor_val_one, Shape.rowMajor_val_six]
  have h1 : (i 1).val < 1 := (i 1).isLt; have h2 : (i 2).val < 1 := (i 2).isLt
  have h3 : (i 3).val < 1 := (i 3).isLt; have h4 : (i 4).val < 1 := (i 4).isLt
  have h5 : (i 5).val < 1 := (i 5).isLt
  show (i 0).val = (((((i 0).val * 1 + (i 1).val) * 1 + (i 2).val) * 1 + (i 3).val) * 1 + (i 4).val) * 1 + (i 5).val
  omega

/-- The row-half counter, viewed `[1, 1, 2, 1, 1, 1]`, holds the word of its third coordinate. -/
theorem v18_apply (i : S1x1x2x1x1x1.Idx) : val_main_v18 (F := Ideal) i = BitVec.ofNat 32 (i 2).val := by
  unfold val_main_v18
  refine (shapeCast_apply (val_main_v17 (F := Ideal)) shapeCasts_S2_S1x1x2x1x1x1 i
    (ix1 (⟨(i 2).val, (i 2).isLt⟩ : Fin 2)) ?_).trans rfl
  rw [Shape.rowMajor_val_one, Shape.rowMajor_val_six]
  have h0 : (i 0).val < 1 := (i 0).isLt; have h1 : (i 1).val < 1 := (i 1).isLt
  have h3 : (i 3).val < 1 := (i 3).isLt; have h4 : (i 4).val < 1 := (i 4).isLt
  have h5 : (i 5).val < 1 := (i 5).isLt
  show (i 2).val = (((((i 0).val * 1 + (i 1).val) * 2 + (i 2).val) * 1 + (i 3).val) * 1 + (i 4).val) * 1 + (i 5).val
  omega

/-- The column-half counter, viewed `[1, 1, 1, 1, 2, 1]`, holds the word of its fifth coordinate. -/
theorem v25_apply (i : S1x1x1x1x2x1.Idx) : val_main_v25 (F := Ideal) i = BitVec.ofNat 32 (i 4).val := by
  unfold val_main_v25
  refine (shapeCast_apply (val_main_v24 (F := Ideal)) shapeCasts_S2_S1x1x1x1x2x1 i
    (ix1 (⟨(i 4).val, (i 4).isLt⟩ : Fin 2)) ?_).trans rfl
  rw [Shape.rowMajor_val_one, Shape.rowMajor_val_six]
  have h0 : (i 0).val < 1 := (i 0).isLt; have h1 : (i 1).val < 1 := (i 1).isLt
  have h2 : (i 2).val < 1 := (i 2).isLt; have h3 : (i 3).val < 1 := (i 3).isLt
  have h5 : (i 5).val < 1 := (i 5).isLt
  show (i 4).val = (((((i 0).val * 1 + (i 1).val) * 1 + (i 2).val) * 1 + (i 3).val) * 2 + (i 4).val) * 1 + (i 5).val
  omega

/-- The region word at `(b, ·, qi, ·, qj, ·)` is the word of `(4·b + 2·qi + qj)·32`. -/
theorem v30_apply (i : S64x1x2x1x2x1.Idx) :
    val_main_v30 (F := Ideal) i = BitVec.ofNat 32 (((i 0).val * 4 + (i 2).val * 2 + (i 4).val) * 32) := by
  rw [val_main_v30_apply, val_main_v29_apply, val_main_c_5_apply, val_main_v28_apply, val_main_v26_apply,
    val_main_v27_apply, val_main_v23_apply, val_main_v21_apply, val_main_v22_apply, val_main_v16_apply,
    val_main_v20_apply, val_main_v15_apply, val_main_v19_apply, val_main_c_3_apply, val_main_c_4_apply,
    v14_apply, v18_apply, v25_apply]
  exact base_word _ _ _

/-- The segment word of a position of the six-axis view: the region word plus the bin word. -/
theorem v32_apply (X : SImg.Idx → EReal) (b : Fin 64) (c : Fin 3) (qi : Fin 2) (r : Fin 256) (qj : Fin 2)
    (s : Fin 256) :
    val_main_v32 (F := Ideal) X (ix6 b c qi r qj s)
      = IntOp.addi (BitVec.ofNat 32 ((b.val * 4 + qi.val * 2 + qj.val) * 32))
          (binOf (X (ix4 b c (half qi r) (half qj s)))) := by
  rw [val_main_v32_apply, val_main_v31_apply, v30_apply, v11_apply]

end Cert.Hist.Ref

end
-- ==== Proof.LibScatterFlat.lean ====
/-
  Scattering scalars into a vector with an add body, read at one element.

  A scatter-add whose every update is one number carrying one index (the segment sum of a flat
  array: operand [N], indices [E, 1], updates [E]) gives, at element n of the operand, the operand's
  element plus the sum of the updates e whose index word, read as a signed integer, equals n. An
  update whose index is negative or at least N lands outside the operand and contributes nothing.
-/
import Idealize.ShloMosaic.Lib.ValueIdx
import Idealize.ShloMosaic.PureOps.Ideal

noncomputable section

open scoped BigOperators

namespace HistLib

open Idealize.ShloMosaic Idealize.ShloMosaic.ValueIdx

/-- The dimension numbers of a scalar scatter into an operand [N]: no update window axis, inserted
    window axis 0, the one index component addressing operand axis 0, index vectors along axis 1. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)

/-- The window of update e starts at the index word of e, read signed. -/
theorem flat_start0 (e : Fin E) (idx : IVec ⟨2, ![E, 1]⟩ w) :
    (flatScatterDims N E wf).start (ix1 e) idx 0 = (idx (ix2 e (0 : Fin 1))).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand has no axis that is not inserted. -/
theorem flat_sKept : (flatScatterDims N E wf).sKept = [] := rfl

/-- On the operand's one axis, the inserted one, the window coordinate is 0. -/
theorem flat_window0 (j : (⟨1, ![E]⟩ : Shape).Idx) :
    (flatScatterDims N E wf).window j 0 = 0 := by
  unfold ScatterDims.window
  rw [dif_neg (show ¬ (0 : Fin 1) ∈ (flatScatterDims N E wf).sKept from
    fun h => absurd ((flat_sKept wf) ▸ h) (List.not_mem_nil))]

/-- Update e lands on operand element n exactly when its index word, read signed, is n. -/
theorem flat_resultIdx_iff (e : Fin E) (idx : IVec ⟨2, ![E, 1]⟩ w) (n : Fin N) :
    (flatScatterDims N E wf).resultIdx? (ix1 e) idx = some (ix1 n)
      ↔ (idx (ix2 e (0 : Fin 1))).toInt = (n.val : Int) := by
  have h0 : (flatScatterDims N E wf).start (ix1 e) idx 0 + ((flatScatterDims N E wf).window (ix1 e) 0 : Int)
      = (idx (ix2 e (0 : Fin 1))).toInt := by
    rw [flat_start0, flat_window0]; simp
  unfold ScatterDims.resultIdx?
  constructor
  · intro h
    split at h
    · rename_i hin
      have hf := Option.some.inj h
      have e0 := congrArg (fun f => (f 0).val) hf
      simp only at e0
      have hin0 := hin 0
      rw [h0] at e0 hin0
      have : ((idx (ix2 e (0 : Fin 1))).toInt.toNat : Int) = (n.val : Int) := by exact_mod_cast e0
      omega
    · exact absurd h (by simp)
  · intro hn
    have hin : ∀ a, 0 ≤ (flatScatterDims N E wf).start (ix1 e) idx a + (flatScatterDims N E wf).window (ix1 e) a ∧
        (flatScatterDims N E wf).start (ix1 e) idx a + (flatScatterDims N E wf).window (ix1 e) a
          < (⟨1, ![N]⟩ : Shape).size a := by
      intro a
      match a with
      | ⟨0, _⟩ =>
        show 0 ≤ (flatScatterDims N E wf).start (ix1 e) idx 0 + ((flatScatterDims N E wf).window (ix1 e) 0 : Int) ∧
          (flatScatterDims N E wf).start (ix1 e) idx 0 + ((flatScatterDims N E wf).window (ix1 e) 0 : Int) < ((N : Nat) : Int)
        have := n.isLt
        rw [h0, hn]; omega
    rw [dif_pos hin]
    congr 1
    funext a
    refine Fin.ext ?_
    match a with
    | ⟨0, _⟩ =>
      show ((flatScatterDims N E wf).start (ix1 e) idx 0 + ((flatScatterDims N E wf).window (ix1 e) 0 : Int)).toNat = n.val
      rw [h0, hn]; simp

/-- SCATTER-ADD OF SCALARS READ AT n, operand [N]: the operand's element plus the sum of the updates e whose
    index word read signed is n. -/
theorem scatterAdd_flat (x : (⟨1, ![N]⟩ : Shape).Idx → EReal) (idx : IVec ⟨2, ![E, 1]⟩ w)
    (upd : (⟨1, ![E]⟩ : Shape).Idx → EReal) (n : Fin N) :
    Ideal.hostScatterAdd (flatScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  refine Finset.sum_nbij' (fun j : (⟨1, ![E]⟩ : Shape).Idx => (j 0 : Fin E))
    (fun e : Fin E => (ix1 e : (⟨1, ![E]⟩ : Shape).Idx)) ?_ ?_ ?_ ?_ ?_
  · intro j hj
    obtain ⟨a, rfl⟩ : ∃ (a : Fin E), j = ix1 a := ⟨j 0, eq_ix1 j⟩
    exact Finset.mem_filter.2 ⟨Finset.mem_univ _,
      (flat_resultIdx_iff wf a idx n).1 (Finset.mem_filter.1 hj).2⟩
  · intro e he
    exact Finset.mem_filter.2 ⟨Finset.mem_univ _,
      (flat_resultIdx_iff wf e idx n).2 (Finset.mem_filter.1 he).2⟩
  · intro j _
    exact (eq_ix1 j).symm
  · intro e _
    rfl
  · intro j _
    exact congrArg upd (eq_ix1 j)

/-- The same with a zero operand element and updates that are all 1: segment n counts the updates whose index word,
    read signed, is n. -/
theorem scatterAdd_flat_ones (x : (⟨1, ![N]⟩ : Shape).Idx → EReal) (idx : IVec ⟨2, ![E, 1]⟩ w)
    (upd : (⟨1, ![E]⟩ : Shape).Idx → EReal) (n : Fin N) (hx : x (ix1 n) = 0) (hu : ∀ e : Fin E, upd (ix1 e) = 1) :
    Ideal.hostScatterAdd (flatScatterDims N E wf) x idx upd (ix1 n)
      = ∑ e : Fin E, if (idx (ix2 e (0 : Fin 1))).toInt = (n.val : Int) then (1 : EReal) else 0 := by
  rw [scatterAdd_flat, hx, zero_add, Finset.sum_filter]
  exact Finset.sum_congr rfl fun e _ => by rw [hu]

end Flat

end HistLib

end
-- ==== Proof.RefScatter.lean ====
/-
  The reference's segment sum, read at a segment: it is the histogram count.

  The scatter adds, into segment `n` of 8192 zeros, the weight of every position of the flattened six-axis view
  whose segment word, read signed, is `n`. Re-indexing the flat positions by the six coordinates
  `(b, c, qi, r, qj, s)` (the flattening is a bijection of index sets) and using that the segment word of a position
  is `n = ((2·b₀ + qi₀)·2 + qj₀)·32 + k₀` exactly when `b = b₀`, `qi = qi₀`, `qj = qj₀` and the pixel's bin word is
  `k₀`'s, the sum keeps only image `b₀` and quadrant `(qi₀, qj₀)`: it is `count X b₀ qi₀ qj₀ k₀`.
-/
import proofs.«153028_j50165218017745_2_alg».proof.Proof.RefPixel
import proofs.«153028_j50165218017745_2_alg».proof.Proof.LibIdxSums
import proofs.«153028_j50165218017745_2_alg».proof.Proof.RefConsts
import proofs.«153028_j50165218017745_2_alg».proof.Proof.LibScatterFlat

noncomputable section

open scoped BigOperators

namespace Cert.Hist.Ref

open Idealize.ShloMosaic Idealize.ShloMosaic.ValueIdx Cert.ReferenceIdeal Cert.ReferenceIdeal.Gen
  Cert.ReferenceIdeal.Read

/-- The segment number of image `b₀`, quadrant `(qi₀, qj₀)`, bin `k₀`. -/
def seg (b0 : Fin 64) (qi0 qj0 : Fin 2) (k0 : Fin 32) : Fin 8192 :=
  ⟨((b0.val * 2 + qi0.val) * 2 + qj0.val) * 32 + k0.val, by
    have := b0.isLt; have := qi0.isLt; have := qj0.isLt; have := k0.isLt; omega⟩

/-- A bin word is below 32. -/
theorem binOf_toNat_lt (x : EReal) : (binOf x).toNat < 32 := clamp_toNat_lt _

/-- The segment word of a position is segment `(b₀, qi₀, qj₀, k₀)` exactly when the position is in image `b₀`,
    quadrant `(qi₀, qj₀)` and its pixel's bin word is `k₀`'s. -/
theorem hits_iff (x : EReal) (b b0 : Fin 64) (qi qi0 qj qj0 : Fin 2) (k0 : Fin 32) :
    (IntOp.addi (BitVec.ofNat 32 ((b.val * 4 + qi.val * 2 + qj.val) * 32)) (binOf x)).toInt
        = ((seg b0 qi0 qj0 k0).val : Int)
      ↔ (b = b0 ∧ qi = qi0 ∧ qj = qj0 ∧ binOf x = BitVec.ofNat 32 k0.val) :=
  word_hits_iff b b0 qi qi0 qj qj0 k0 (binOf x) (binOf_toNat_lt x)

/-- A sixfold sum whose terms vanish off image `b₀` and quadrant `(qi₀, qj₀)` is the threefold sum over that
    quadrant's rows, columns and channels. -/
theorem collapse3 {M : Type*} [AddCommMonoid M] (b0 : Fin 64) (qi0 qj0 : Fin 2)
    (g : Fin 64 → Fin 3 → Fin 2 → Fin 256 → Fin 2 → Fin 256 → M) :
    (∑ b : Fin 64, ∑ c : Fin 3, ∑ qi : Fin 2, ∑ r : Fin 256, ∑ qj : Fin 2, ∑ s : Fin 256,
        if b = b0 then (if qi = qi0 then (if qj = qj0 then g b c qi r qj s else 0) else 0) else 0)
      = ∑ r : Fin 256, ∑ s : Fin 256, ∑ c : Fin 3, g b0 c qi0 r qj0 s := by
  have e1 : ∀ (c : Fin 3) (r : Fin 256),
      (∑ qj : Fin 2, ∑ s : Fin 256, if qj = qj0 then g b0 c qi0 r qj s else 0)
        = ∑ s : Fin 256, g b0 c qi0 r qj0 s := by
    intro c r
    refine (Finset.sum_eq_single qj0 (fun qj _ h => ?_) (fun h => absurd (Finset.mem_univ _) h)).trans ?_
    · simp only [if_neg h, Finset.sum_const_zero]
    · simp only [eq_self_iff_true, if_true]
  have e2 : ∀ c : Fin 3,
      (∑ qi : Fin 2, ∑ r : Fin 256, ∑ qj : Fin 2, ∑ s : Fin 256,
          if qi = qi0 then (if qj = qj0 then g b0 c qi r qj s else 0) else 0)
        = ∑ r : Fin 256, ∑ s : Fin 256, g b0 c qi0 r qj0 s := by
    intro c
    refine (Finset.sum_eq_single qi0 (fun qi _ h => ?_) (fun h => absurd (Finset.mem_univ _) h)).trans ?_
    · simp only [if_neg h, Finset.sum_const_zero]
    · simp only [eq_self_iff_true, if_true]
      exact Finset.sum_congr rfl fun r _ => e1 c r
  have e3 : (∑ b : Fin 64, ∑ c : Fin 3, ∑ qi : Fin 2, ∑ r : Fin 256, ∑ qj : Fin 2, ∑ s : Fin 256,
        if b = b0 then (if qi = qi0 then (if qj = qj0 then g b c qi r qj s else 0) else 0) else 0)
      = ∑ c : Fin 3, ∑ r : Fin 256, ∑ s : Fin 256, g b0 c qi0 r qj0 s := by
    refine (Finset.sum_eq_single b0 (fun b _ h => ?_) (fun h => absurd (Finset.mem_univ _) h)).trans ?_
    · simp only [if_neg h, Finset.sum_const_zero]
    · simp only [eq_self_iff_true, if_true]
      exact Finset.sum_congr rfl fun c _ => e2 c
  rw [e3, Finset.sum_comm]
  exact Finset.sum_congr rfl fun r _ => Finset.sum_comm

/-- The reference's scatter dimension numbers are those of a scatter of scalars into a vector. -/
theorem dims_eq : scatter_S8192_S50331648x1_S50331648_n_0_0_1
    = HistLib.flatScatterDims 8192 50331648 Facts₀.scatter_S8192_S50331648x1_S50331648_n_0_0_1_wf := rfl

/-- The scatter-add of any operand, index words and updates of the reference's shapes, read at segment `n`: the
    operand's element plus the sum of the updates whose index word read signed is `n`. -/
theorem scatter_read (x : S8192.Idx → EReal) (idx : IVec S50331648x1 32) (upd : S50331648.Idx → EReal)
    (n : Fin 8192) :
    Host.scatterAdd (F := Ideal) (φ := .f32) scatter_S8192_S50331648x1_S50331648_n_0_0_1 x idx upd (ix1 n)
      = x (ix1 n) + ∑ e ∈ Finset.univ.filter
            (fun e : Fin 50331648 => (idx (ix2 e (0 : Fin 1))).toInt = (n.val : Int)), upd (ix1 e) := by
  unfold Host.scatterAdd
  rw [Ideal.hostScatterAdd_def, dims_eq]
  exact HistLib.scatterAdd_flat _ x idx upd n

/-- The reference's scatter read at segment `n`: the operand is zero, so it is the sum over the flat positions
    whose segment word read signed is `n` of their weights. -/
theorem v37_flat (X : SImg.Idx → EReal) (n : Fin 8192) :
    val_main_v37 (F := Ideal) X (ix1 n)
      = ∑ e : Fin 50331648, if (val_main_v33 (F := Ideal) X (ix1 e)).toInt = (n.val : Int)
          then val_main_v34 (F := Ideal) X (ix1 e) else 0 := by
  have h36 : ∀ e : Fin 50331648,
      val_main_v36 (F := Ideal) X (ix2 e (0 : Fin 1)) = val_main_v33 (F := Ideal) X (ix1 e) := by
    intro e
    rw [val_main_v36_apply]
    congr 1
    funext a
    match a with
    | ⟨0, _⟩ => rfl
  refine (scatter_read (val_main_v35 (F := Ideal)) (val_main_v36 (F := Ideal) X)
    (val_main_v34 (F := Ideal) X) n).trans ?_
  rw [val_main_v35_apply, val_main_cst_6_apply,
    show FloatOps.ofBits (F := Ideal) .f32 0x00000000#32 = 0 from ofBits_zero, zero_add, Finset.sum_filter]
  exact Finset.sum_congr rfl fun e _ => by rw [h36]

/-- THE SCATTER AS A SUM OVER THE SIX COORDINATES: segment `n` holds the sum, over the positions of the six-axis
    view whose segment word read signed is `n`, of their weights. The flattening of the six-axis view is a
    bijection of index sets, so the sum over flat positions is the sum over six-axis positions. -/
theorem v37_sum (X : SImg.Idx → EReal) (n : Fin 8192) :
    val_main_v37 (F := Ideal) X (ix1 n)
      = ∑ b : Fin 64, ∑ c : Fin 3, ∑ qi : Fin 2, ∑ r : Fin 256, ∑ qj : Fin 2, ∑ s : Fin 256,
          if (val_main_v32 (F := Ideal) X (ix6 b c qi r qj s)).toInt = (n.val : Int)
            then val_main_v12 (F := Ideal) X (ix6 b c qi r qj s) else 0 := by
  calc val_main_v37 (F := Ideal) X (ix1 n)
      = ∑ e : Fin 50331648, if (val_main_v33 (F := Ideal) X (ix1 e)).toInt = (n.val : Int)
          then val_main_v34 (F := Ideal) X (ix1 e) else 0 := v37_flat X n
    _ = ∑ j : S50331648.Idx, if (val_main_v33 (F := Ideal) X j).toInt = (n.val : Int)
          then val_main_v34 (F := Ideal) X j else 0 :=
        (sum_idx1 (fun j : S50331648.Idx => if (val_main_v33 (F := Ideal) X j).toInt = (n.val : Int)
          then val_main_v34 (F := Ideal) X j else 0)).symm
    _ = ∑ k : S64x3x2x256x2x256.Idx, if (val_main_v32 (F := Ideal) X k).toInt = (n.val : Int)
          then val_main_v12 (F := Ideal) X k else 0 :=
        Equiv.sum_comp (Shape.reshapeEquiv shapeCasts_S64x3x2x256x2x256_S50331648)
          (fun k : S64x3x2x256x2x256.Idx => if (val_main_v32 (F := Ideal) X k).toInt = (n.val : Int)
            then val_main_v12 (F := Ideal) X k else 0)
    _ = _ := sum_idx6 _

/-- THE SEGMENT SUM IS THE COUNT: segment `(b₀, qi₀, qj₀, k₀)` of the scatter's result is the weighted number of
    pixels of image `b₀`, quadrant `(qi₀, qj₀)`, all channels, in bin `k₀`. -/
theorem v37_apply (X : SImg.Idx → EReal) (b0 : Fin 64) (qi0 qj0 : Fin 2) (k0 : Fin 32) :
    val_main_v37 (F := Ideal) X (ix1 (seg b0 qi0 qj0 k0)) = count X b0 qi0 qj0 k0.val := by
  rw [v37_sum]
  simp only [v32_apply, v12_apply, hits_iff, ite_and]
  exact collapse3 b0 qi0 qj0
    (fun b c qi r qj s => hit k0.val (X (ix4 b c (half qi r) (half qj s))))

/-- THE COUNTS: the scatter's result viewed `[64, 2, 2, 32]` holds at `(b, qi, qj, k)` the weighted number of pixels
    of image `b`, quadrant `(qi, qj)`, all channels, in bin `k`. -/
theorem counts_apply (X : SImg.Idx → EReal) (b : Fin 64) (qi qj : Fin 2) (k : Fin 32) :
    val_main_v38 (F := Ideal) X (ix4 b qi qj k) = count X b qi qj k.val := by
  rw [val_main_v38_apply]
  have h : idx_main_v38 (ix4 b qi qj k) = ix1 (seg b qi qj k) := by
    funext a
    match a with
    | ⟨0, _⟩ => rfl
  rw [h, v37_apply]

end Cert.Hist.Ref

end
-- ==== Proof.RefRead.lean ====
/-
  The reference's result, read at an index: the specification's array.

  From the per-quadrant counts `[64, 2, 2, 32]`: the first 32 channels hold the four quadrants' counts of a bin added
  and divided by 2¹⁸, the same at every one of the 4 × 4 positions; the next 32 hold each quadrant's count divided by
  2¹⁶, every quadrant's value repeated over its 2 × 2 positions (a transpose, then twice a new axis of length two
  merged into the axis before it); the last 32 are zero. Dividing by a power of two is multiplying by its reciprocal
  at every extended real.
-/
import proofs.«153028_j50165218017745_2_alg».proof.Proof.Gen.ReferenceIdeal.Read
import proofs.«153028_j50165218017745_2_alg».proof.Proof.Spec
import proofs.«153028_j50165218017745_2_alg».proof.Proof.LibIdxSums
import proofs.«153028_j50165218017745_2_alg».proof.Proof.RefConsts
import proofs.«153028_j50165218017745_2_alg».proof.Proof.RefScatter
import Idealize.ShloMosaic.Lib.Pipeline.Value

noncomputable section

open scoped BigOperators

namespace Cert.Hist.Ref

open Cert.ReferenceIdeal Cert.ReferenceIdeal.Gen Cert.ReferenceIdeal.Read
open Idealize.ShloMosaic Idealize.ShloMosaic.ValueIdx
open Cert.Hist

/-- Dropping the two quadrant coordinates of `(a, q1, q2, d)` leaves `(a, d)`. -/
theorem drop_quads (h : S64x2x2x32.ReducesTo [1, 2] S64x32) (a : Fin 64) (q1 q2 : Fin 2) (d : Fin 32) :
    h.drop (ix4 a q1 q2 d) = ix2 a d := by
  funext e
  apply Fin.ext
  match e with
  | ⟨0, _⟩ => rfl
  | ⟨1, _⟩ => rfl

/-- A `[64, 2, 2, 32]` array added over its two middle axes, from an initial value, at `(b, k)`. -/
theorem reduce_quads (y : S64x2x2x32.Idx → EReal) (i0 : EReal) (b : Fin 64) (k : Fin 32) :
    Ideal.hostReduceAdd reducesTo_S64x2x2x32_S64x32_d1_2 y i0 (ix2 b k)
      = i0 + (y (ix4 b 0 0 k) + y (ix4 b 0 1 k) + y (ix4 b 1 0 k) + y (ix4 b 1 1 k)) := by
  unfold Ideal.hostReduceAdd
  have hsum : ∑ i ∈ Finset.univ.filter (fun i : S64x2x2x32.Idx => reducesTo_S64x2x2x32_S64x32_d1_2.drop i = ix2 b k), y i
      = ∑ p : Fin 2 × Fin 2, y (ix4 b p.1 p.2 k) := by
    refine Finset.sum_nbij' (fun i : S64x2x2x32.Idx => ((i 1 : Fin 2), (i 2 : Fin 2)))
      (fun p : Fin 2 × Fin 2 => (ix4 b p.1 p.2 k : S64x2x2x32.Idx)) ?_ ?_ ?_ ?_ ?_
    · intro i _; exact Finset.mem_univ _
    · intro p _
      exact Finset.mem_filter.2 ⟨Finset.mem_univ _, drop_quads _ b p.1 p.2 k⟩
    · intro i hi
      have hd := (Finset.mem_filter.1 hi).2
      obtain ⟨a, q1, q2, d, rfl⟩ : ∃ (a : Fin 64) (q1 q2 : Fin 2) (d : Fin 32), i = ix4 a q1 q2 d :=
        ⟨i 0, i 1, i 2, i 3, eq_ix4 i⟩
      rw [drop_quads] at hd
      have h0 : a = b := congrFun hd 0
      have h3 : d = k := congrFun hd 1
      subst h0; subst h3
      rfl
    · intro p _; rfl
    · intro i hi
      have hd := (Finset.mem_filter.1 hi).2
      obtain ⟨a, q1, q2, d, rfl⟩ : ∃ (a : Fin 64) (q1 q2 : Fin 2) (d : Fin 32), i = ix4 a q1 q2 d :=
        ⟨i 0, i 1, i 2, i 3, eq_ix4 i⟩
      rw [drop_quads] at hd
      have h0 : a = b := congrFun hd 0
      have h3 : d = k := congrFun hd 1
      subst h0; subst h3
      rfl
  rw [hsum, Fintype.sum_prod_type, Fin.sum_univ_two, Fin.sum_univ_two, Fin.sum_univ_two]
  exact congrArg (fun z => i0 + z) (add_assoc _ _ _).symm

/-- The counts of bin `k` of image `b` added over the four quadrants. -/
theorem sum_quads (X : SImg.Idx → EReal) (b : Fin 64) (k : Fin 32) :
    val_main_v41 (F := Ideal) X (ix2 b k)
      = count X b 0 0 k.val + count X b 0 1 k.val + count X b 1 0 k.val + count X b 1 1 k.val := by
  unfold val_main_v41
  refine (reduce_quads (val_main_v38 (F := Ideal) X) _ b k).trans ?_
  rw [counts_apply, counts_apply, counts_apply, counts_apply]
  show Ideal.ofBits .f32 0x00000000#32 + _ = _
  rw [ofBits_zero, zero_add]

/-- The first slab at `(b, k, r, s)`: the added counts times 2⁻¹⁸. -/
theorem v45_apply (X : SImg.Idx → EReal) (b : Fin 64) (k : Fin 32) (r s : Fin 4) :
    val_main_v45 (F := Ideal) X (ix4 b k r s)
      = (count X b 0 0 k.val + count X b 0 1 k.val + count X b 1 0 k.val + count X b 1 1 k.val)
          * Ideal.ofBits .f32 0x36800000#32 := by
  have e : idx_main_v44 (idx_main_v45 (ix4 b k r s)) = ix2 b k := by
    funext a
    apply Fin.ext
    match a with
    | ⟨0, _⟩ => rfl
    | ⟨1, _⟩ => rfl
  rw [val_main_v45_apply, val_main_v44_apply, val_main_v43_apply, e, sum_quads, val_main_v42_apply]
  exact div_262144 _

/-- Where entry `(b, k, r, s)` of the second slab comes from in the counts: quadrant `(r / 2, s / 2)`, bin `k`. -/
theorem e50 (b : Fin 64) (k : Fin 32) (r s : Fin 4) :
    idx_main_v50 (ix4 b k r s)
      = ix5 b k r (⟨s.val / 2, by omega⟩ : Fin 2) (⟨s.val % 2, by omega⟩ : Fin 2) := by
  have hb := b.isLt; have hk := k.isLt; have hr := r.isLt; have hs := s.isLt
  funext a
  apply Fin.ext
  match a with
  | ⟨0, _⟩ => show (((b.val * 32 + k.val) * 4 + r.val) * 4 + s.val) / 512 = b.val; omega
  | ⟨1, _⟩ => show (((b.val * 32 + k.val) * 4 + r.val) * 4 + s.val) / 16 % 32 = k.val; omega
  | ⟨2, _⟩ => show (((b.val * 32 + k.val) * 4 + r.val) * 4 + s.val) / 4 % 4 = r.val; omega
  | ⟨3, _⟩ => show (((b.val * 32 + k.val) * 4 + r.val) * 4 + s.val) / 2 % 2 = s.val / 2; omega
  | ⟨4, _⟩ => show (((b.val * 32 + k.val) * 4 + r.val) * 4 + s.val) % 2 = s.val % 2; omega

theorem e49 (b : Fin 64) (k : Fin 32) (r : Fin 4) (s1 s0 : Fin 2) :
    idx_main_v49 (ix5 b k r s1 s0) = ix4 b k r s1 := by
  funext a
  apply Fin.ext
  match a with
  | ⟨0, _⟩ => rfl
  | ⟨1, _⟩ => rfl
  | ⟨2, _⟩ => rfl
  | ⟨3, _⟩ => rfl

theorem e48 (b : Fin 64) (k : Fin 32) (r : Fin 4) (s1 : Fin 2) :
    idx_main_v48 (ix4 b k r s1)
      = ix5 b k (⟨r.val / 2, by omega⟩ : Fin 2) (⟨r.val % 2, by omega⟩ : Fin 2) s1 := by
  have hb := b.isLt; have hk := k.isLt; have hr := r.isLt; have hs := s1.isLt
  funext a
  apply Fin.ext
  match a with
  | ⟨0, _⟩ => show (((b.val * 32 + k.val) * 4 + r.val) * 2 + s1.val) / 256 = b.val; omega
  | ⟨1, _⟩ => show (((b.val * 32 + k.val) * 4 + r.val) * 2 + s1.val) / 8 % 32 = k.val; omega
  | ⟨2, _⟩ => show (((b.val * 32 + k.val) * 4 + r.val) * 2 + s1.val) / 4 % 2 = r.val / 2; omega
  | ⟨3, _⟩ => show (((b.val * 32 + k.val) * 4 + r.val) * 2 + s1.val) / 2 % 2 = r.val % 2; omega
  | ⟨4, _⟩ => show (((b.val * 32 + k.val) * 4 + r.val) * 2 + s1.val) % 2 = s1.val; omega

theorem e47 (b : Fin 64) (k : Fin 32) (r1 r0 s1 : Fin 2) :
    idx_main_v47 (ix5 b k r1 r0 s1) = ix4 b k r1 s1 := by
  funext a
  apply Fin.ext
  match a with
  | ⟨0, _⟩ => rfl
  | ⟨1, _⟩ => rfl
  | ⟨2, _⟩ => rfl
  | ⟨3, _⟩ => rfl

theorem e46 (b : Fin 64) (k : Fin 32) (r1 s1 : Fin 2) :
    idx_main_v46 (ix4 b k r1 s1) = ix4 b r1 s1 k := by
  funext a
  apply Fin.ext
  match a with
  | ⟨0, _⟩ => rfl
  | ⟨1, _⟩ => rfl
  | ⟨2, _⟩ => rfl
  | ⟨3, _⟩ => rfl

/-- The second slab at `(b, k, r, s)`: the count of bin `k` in quadrant `(r / 2, s / 2)` times 2⁻¹⁶. -/
theorem v50_apply (X : SImg.Idx → EReal) (b : Fin 64) (k : Fin 32) (r s : Fin 4) :
    val_main_v50 (F := Ideal) X (ix4 b k r s)
      = count X b (halfOf r) (halfOf s) k.val * Ideal.ofBits .f32 0x37800000#32 := by
  rw [val_main_v50_apply, e50, val_main_v49_apply, e49, val_main_v48_apply, e48, val_main_v47_apply, e47,
    val_main_v46_apply, e46, val_main_v40_apply, val_main_v39_apply, counts_apply]
  exact div_65536 _

/-- Three `[64, 32, 4, 4]` slabs laid along the channel axis, read at `(b, ch, r, s)`. -/
theorem slabs_apply {α : Type} (x0 x1 x2 : S64x32x4x4.Idx → α) (b : Fin 64) (ch : Fin 96) (r s : Fin 4) :
    concatenate S64x96x4x4 1 [⟨S64x32x4x4, x0⟩, ⟨S64x32x4x4, x1⟩, ⟨S64x32x4x4, x2⟩]
        concatenates_S64x32x4x4_S64x32x4x4_S64x32x4x4_S64x96x4x4_d1 (ix4 b ch r s)
      = if h0 : ch.val < 32 then x0 (ix4 b (⟨ch.val, h0⟩ : Fin 32) r s)
        else if h1 : ch.val < 64 then x1 (ix4 b (⟨ch.val - 32, by omega⟩ : Fin 32) r s)
        else x2 (ix4 b (⟨ch.val - 64, by have := ch.isLt; omega⟩ : Fin 32) r s) := by
  by_cases h0 : ch.val < 32
  · rw [dif_pos h0]
    exact concatenate_apply_piece (t := S64x96x4x4) (1 : Fin 4) [⟨S64x32x4x4, x0⟩, ⟨S64x32x4x4, x1⟩, ⟨S64x32x4x4, x2⟩]
      concatenates_S64x32x4x4_S64x32x4x4_S64x32x4x4_S64x96x4x4_d1
      (ix4 b ch r s) 0 (by show 0 < 3; omega) S64x32x4x4 x0 rfl rfl 0 rfl (ix4 b (⟨ch.val, h0⟩ : Fin 32) r s) (fun e he => by
        match e with
        | ⟨0, _⟩ => rfl
        | ⟨1, _⟩ => exact absurd rfl he
        | ⟨2, _⟩ => rfl
        | ⟨3, _⟩ => rfl) (by show 0 + ch.val = ch.val; omega)
  · rw [dif_neg h0]
    by_cases h1 : ch.val < 64
    · rw [dif_pos h1]
      exact concatenate_apply_piece (t := S64x96x4x4) (1 : Fin 4) [⟨S64x32x4x4, x0⟩, ⟨S64x32x4x4, x1⟩, ⟨S64x32x4x4, x2⟩]
        concatenates_S64x32x4x4_S64x32x4x4_S64x32x4x4_S64x96x4x4_d1
        (ix4 b ch r s) 1 (by show 1 < 3; omega) S64x32x4x4 x1 rfl rfl 32 rfl (ix4 b (⟨ch.val - 32, by omega⟩ : Fin 32) r s) (fun e he => by
          match e with
          | ⟨0, _⟩ => rfl
          | ⟨1, _⟩ => exact absurd rfl he
          | ⟨2, _⟩ => rfl
          | ⟨3, _⟩ => rfl) (by show 32 + (ch.val - 32) = ch.val; omega)
    · rw [dif_neg h1]
      have := ch.isLt
      exact concatenate_apply_piece (t := S64x96x4x4) (1 : Fin 4) [⟨S64x32x4x4, x0⟩, ⟨S64x32x4x4, x1⟩, ⟨S64x32x4x4, x2⟩]
        concatenates_S64x32x4x4_S64x32x4x4_S64x32x4x4_S64x96x4x4_d1
        (ix4 b ch r s) 2 (by show 2 < 3; omega) S64x32x4x4 x2 rfl rfl 64 rfl (ix4 b (⟨ch.val - 64, by omega⟩ : Fin 32) r s) (fun e he => by
          match e with
          | ⟨0, _⟩ => rfl
          | ⟨1, _⟩ => exact absurd rfl he
          | ⟨2, _⟩ => rfl
          | ⟨3, _⟩ => rfl) (by show 64 + (ch.val - 64) = ch.val; omega)

/-- THE REFERENCE'S RESULT is the specification's array of its argument. -/
theorem ref_is_G (X : SImg.Idx → EReal) : val_main_v52 (F := Ideal) X = G X := by
  funext j
  obtain ⟨b, ch, r, s, rfl⟩ : ∃ (b : Fin 64) (ch : Fin 96) (r s : Fin 4), j = ix4 b ch r s :=
    ⟨j 0, j 1, j 2, j 3, eq_ix4 j⟩
  unfold val_main_v52
  rw [slabs_apply]
  unfold G
  show _ = if ch.val < 32 then _ else if ch.val < 64 then _ else _
  by_cases h0 : ch.val < 32
  · rw [dif_pos h0, if_pos h0]
    exact v45_apply X b _ r s
  · rw [dif_neg h0, if_neg h0]
    by_cases h1 : ch.val < 64
    · rw [dif_pos h1, if_pos h1]
      exact v50_apply X b _ r s
    · rw [dif_neg h1, if_neg h1, val_main_v51_apply]
      rfl

end Cert.Hist.Ref

end
-- ==== Proof.lean ====
/-
  A 32-bin histogram of each image over its four quadrants, laid out over a 96 × 4 × 4 output block: the tiled kernel
  against the reference that scatters every pixel's weight into its (image, quadrant, bin) segment.

  Both programs, read at the ideal values, end with the output array at one function `Cert.Hist.G` of the input array
  (proof/Proof/Spec.lean). Kernel side: the body's 32 unrolled repetitions are one family of functions of the bin word
  (KernelShape), whose sums and layout are read at an index (KernelSums, KernelLayout, KernelPixel); grid point `t`
  writes back block `t` of `G`, and the 64 blocks cover the output (KernelValue). Reference side: the scatter-add at
  a segment is the sum of the weights of the pixels whose index word is that segment, and the index word of a pixel is
  its (image, quadrant, bin) number, so the segment's value is the quadrant's count (the Ref modules). No step needs
  the input to be finite: sums are only re-indexed and reordered (addition on the extended reals is commutative and
  associative), and dividing by a power of two is multiplying by its reciprocal at every extended real.
  The three frames are the generated frame runs; the idealization rewrote nothing, so `preserves` is `True`.
-/
import proofs.«153028_j50165218017745_2_alg».proof.Defs
import proofs.«153028_j50165218017745_2_alg».proof.Proof.Gen.Kernel
import proofs.«153028_j50165218017745_2_alg».proof.Proof.Gen.Kernel.Frame
import proofs.«153028_j50165218017745_2_alg».proof.Proof.Gen.KernelIdeal
import proofs.«153028_j50165218017745_2_alg».proof.Proof.Gen.KernelIdeal.Frame
import proofs.«153028_j50165218017745_2_alg».proof.Proof.Gen.KernelIdeal.Value
import proofs.«153028_j50165218017745_2_alg».proof.Proof.Gen.ReferenceIdeal
import proofs.«153028_j50165218017745_2_alg».proof.Proof.Gen.ReferenceIdeal.Run
import proofs.«153028_j50165218017745_2_alg».proof.Proof.Gen.ReferenceIdeal.Read
import proofs.«153028_j50165218017745_2_alg».proof.Proof.Gen.Pre_finite_inputs
import proofs.«153028_j50165218017745_2_alg».proof.Proof.KernelValue
import proofs.«153028_j50165218017745_2_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the output at `G` of the (agreeing) input arrays. -/
theorem algebraic : Cert.algebraic_KernelIdeal_ReferenceIdeal := by
  intro m ρ m' ρ' _ hagree
  refine ⟨fun c => Cert.Hist.G (m ((c.tc : Thread Cert.KernelIdeal.nD Cert.KernelIdeal.τ).loc Cert.KernelIdeal.main_arg0)),
    Cert.Hist.KernValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v52_eq, Cert.Hist.Ref.ref_is_G, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
